-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v132) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4x512x512 : Shape := ⟨4, ![16, 4, 512, 512]⟩
abbrev S1x4 : Shape := ⟨2, ![1, 4]⟩
abbrev S_ : Shape := ⟨0, ![]⟩

class Facts : Prop where
  bcast_S_S16x4x512x512 : S_.BroadcastsInDim S16x4x512x512 (![] : Fin 0 → Fin S16x4x512x512.rank)
  reducesTo_S16x4x512x512_S_d0_1_2_3 : S16x4x512x512.ReducesTo [0, 1, 2, 3] S_
  h_S_ : 0 < S_.numel
  bcast_S_S1x4 : S_.BroadcastsInDim S1x4 (![] : Fin 0 → Fin S1x4.rank)
  reducesTo_S1x4_S_d0_1 : S1x4.ReducesTo [0, 1] S_

variable [Facts]

def fn {F : FTy → Type} [FloatOps F] (main_arg0 : FVec F S16x4x512x512 .f32) (main_arg1 : FVec F S16x4x512x512 .f32) (main_arg2 : FVec F S1x4 .f32) : IVec S_ 1 :=
  let main_v0 : FVec F S16x4x512x512 .f32 := Host.absf main_arg0
  let main_cst : FVec F S_ .f32 := constant S_ .f32 0x7F800000#32
  let main_v1 : FVec F S16x4x512x512 .f32 := broadcastInDim S16x4x512x512 ![] bcast_S_S16x4x512x512 main_cst
  let main_v2 : IVec S16x4x512x512 1 := cmpf .olt main_v0 main_v1
  let main_c : IVec S_ 1 := constantI S_ 1 1#1
  let main_v3 : IVec S_ 1 := (fun x v => Host.reduce IntOp.andi x v reducesTo_S16x4x512x512_S_d0_1_2_3 h_S_) main_v2 main_c
  let main_v4 : FVec F S16x4x512x512 .f32 := Host.absf main_arg1
  let main_cst_0 : FVec F S_ .f32 := constant S_ .f32 0x7F800000#32
  let main_v5 : FVec F S16x4x512x512 .f32 := broadcastInDim S16x4x512x512 ![] bcast_S_S16x4x512x512 main_cst_0
  let main_v6 : IVec S16x4x512x512 1 := cmpf .olt main_v4 main_v5
  let main_c_1 : IVec S_ 1 := constantI S_ 1 1#1
  let main_v7 : IVec S_ 1 := (fun x v => Host.reduce IntOp.andi x v reducesTo_S16x4x512x512_S_d0_1_2_3 h_S_) main_v6 main_c_1
  let main_v8 : IVec S_ 1 := andi main_v3 main_v7
  let main_v9 : FVec F S1x4 .f32 := Host.absf main_arg2
  let main_cst_2 : FVec F S_ .f32 := constant S_ .f32 0x7F800000#32
  let main_v10 : FVec F S1x4 .f32 := broadcastInDim S1x4 ![] bcast_S_S1x4 main_cst_2
  let main_v11 : IVec S1x4 1 := cmpf .olt main_v9 main_v10
  let main_c_3 : IVec S_ 1 := constantI S_ 1 1#1
  let main_v12 : IVec S_ 1 := (fun x v => Host.reduce IntOp.andi x v reducesTo_S1x4_S_d0_1 h_S_) main_v11 main_c_3
  let main_v13 : IVec S_ 1 := andi main_v8 main_v12
  main_v13
-- ==== Kernel.lean ====
abbrev S16x4x512x512 : Shape := ⟨4, ![16, 4, 512, 512]⟩
abbrev S1x4 : Shape := ⟨2, ![1, 4]⟩
abbrev S64x512x512 : Shape := ⟨3, ![64, 512, 512]⟩
abbrev S64x2 : Shape := ⟨2, ![64, 2]⟩
abbrev S8x512x512 : Shape := ⟨3, ![8, 512, 512]⟩
abbrev S8x2 : Shape := ⟨2, ![8, 2]⟩
abbrev S8x1x512 : Shape := ⟨3, ![8, 1, 512]⟩
abbrev S8x513x512 : Shape := ⟨3, ![8, 513, 512]⟩
abbrev S8x514x512 : Shape := ⟨3, ![8, 514, 512]⟩
abbrev S8x514x1 : Shape := ⟨3, ![8, 514, 1]⟩
abbrev S8x514x513 : Shape := ⟨3, ![8, 514, 513]⟩
abbrev S8x514x514 : Shape := ⟨3, ![8, 514, 514]⟩
abbrev S8x512 : Shape := ⟨2, ![8, 512]⟩
abbrev S8x1 : Shape := ⟨2, ![8, 1]⟩
abbrev S8x513 : Shape := ⟨2, ![8, 513]⟩
abbrev S8x514 : Shape := ⟨2, ![8, 514]⟩
abbrev S8 : Shape := ⟨1, ![8]⟩
abbrev S64x1 : Shape := ⟨2, ![64, 1]⟩
abbrev S64 : Shape := ⟨1, ![64]⟩
abbrev S16x4 : Shape := ⟨2, ![16, 4]⟩
abbrev S_ : Shape := ⟨0, ![]⟩

abbrev nBuf : Space → Nat
  | .hbm => 23
  | .vmem => 6
  | .smem => 0
  | _ => 0

abbrev bufTy : (tb : Table) → Fin (tcTables nBuf tb) → BufTy
  | .hbm, ⟨0, _⟩ => ⟨S16x4x512x512, .f32⟩
  | .hbm, ⟨1, _⟩ => ⟨S16x4x512x512, .f32⟩
  | .hbm, ⟨2, _⟩ => ⟨S1x4, .f32⟩
  | .hbm, ⟨3, _⟩ => ⟨S64x512x512, .f32⟩
  | .hbm, ⟨4, _⟩ => ⟨S64x512x512, .f32⟩
  | .hbm, ⟨5, _⟩ => ⟨S64x2, .f32⟩
  | .hbm, ⟨6, _⟩ => ⟨S64x1, .f32⟩
  | .hbm, ⟨7, _⟩ => ⟨S64, .f32⟩
  | .hbm, ⟨8, _⟩ => ⟨S16x4, .f32⟩
  | .hbm, ⟨9, _⟩ => ⟨S64x1, .f32⟩
  | .hbm, ⟨10, _⟩ => ⟨S64, .f32⟩
  | .hbm, ⟨11, _⟩ => ⟨S16x4, .f32⟩
  | .hbm, ⟨12, _⟩ => ⟨S1x4, .f32⟩
  | .hbm, ⟨13, _⟩ => ⟨S16x4, .f32⟩
  | .hbm, ⟨14, _⟩ => ⟨S16x4, .f32⟩
  | .hbm, ⟨15, _⟩ => ⟨S16x4, .f32⟩
  | .hbm, ⟨16, _⟩ => ⟨S_, .f32⟩
  | .hbm, ⟨17, _⟩ => ⟨S16x4, .f32⟩
  | .hbm, ⟨18, _⟩ => ⟨S16x4, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S8x512x512, .f32⟩
  | .local _ .vmem, ⟨1, _⟩ => ⟨S8x512x512, .f32⟩
  | .local _ .vmem, ⟨2, _⟩ => ⟨S8x512x512, .f32⟩
  | .local _ .vmem, ⟨3, _⟩ => ⟨S8x512x512, .f32⟩
  | .local _ .vmem, ⟨4, _⟩ => ⟨S8x2, .f32⟩
  | .local _ .vmem, ⟨5, _⟩ => ⟨S8x2, .f32⟩
  | _, _ => ⟨S16x4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16x4x512x512_S64x512x512 : S16x4x512x512.ShapeCasts S64x512x512
  inb_S8x512x512_S8x512x512_0_0_0 : ∀ a, (![0, 0, 0] : Fin 3 → Nat) a + S8x512x512.size a ≤ S8x512x512.size a
  h_S8x512x512 : 0 < S8x512x512.numel
  shapeCasts_S8x512x512_S8x512x512 : S8x512x512.ShapeCasts S8x512x512
  concatenates_S8x1x512_S8x512x512_S8x513x512_d1 : Shape.Concatenates [S8x1x512, S8x512x512] S8x513x512 1
  concatenates_S8x513x512_S8x1x512_S8x514x512_d1 : Shape.Concatenates [S8x513x512, S8x1x512] S8x514x512 1
  concatenates_S8x514x1_S8x514x512_S8x514x513_d2 : Shape.Concatenates [S8x514x1, S8x514x512] S8x514x513 2
  concatenates_S8x514x513_S8x514x1_S8x514x514_d2 : Shape.Concatenates [S8x514x513, S8x514x1] S8x514x514 2
  slices_S8x514x514_o0_2_0_S8x512x512 : S8x514x514.Slices ![0, 2, 0] S8x512x512
  slices_S8x514x514_o0_0_0_S8x512x512 : S8x514x514.Slices ![0, 0, 0] S8x512x512
  reduces_S8x512x512_S8x512 : S8x512x512.Reduces [1] S8x512
  concatenates_S8x1_S8x512_S8x513_d1 : Shape.Concatenates [S8x1, S8x512] S8x513 1
  concatenates_S8x513_S8x1_S8x514_d1 : Shape.Concatenates [S8x513, S8x1] S8x514 1
  slices_S8x514_o0_2_S8x512 : S8x514.Slices ![0, 2] S8x512
  slices_S8x514_o0_0_S8x512 : S8x514.Slices ![0, 0] S8x512
  reduces_S8x512_S8 : S8x512.Reduces [1] S8
  slices_S8x514x514_o0_0_2_S8x512x512 : S8x514x514.Slices ![0, 0, 2] S8x512x512
  reduces_S8x512x512_S8x512_2 : S8x512x512.Reduces [2] S8x512
  shapeCasts_S8_S8x1 : S8.ShapeCasts S8x1
  concatenates_S8x1_S8x1_S8x2_d1 : Shape.Concatenates [S8x1, S8x1] S8x2 1
  inb_S8x2_S8x2_0_0 : ∀ a, (![0, 0] : Fin 2 → Nat) a + S8x2.size a ≤ S8x2.size a
  h_S8x2 : 0 < S8x2.numel
  slices_S64x2_S64x1_0_0 : S64x2.Slices ![0, 0] S64x1
  shapeCasts_S64x1_S64 : S64x1.ShapeCasts S64
  shapeCasts_S64_S16x4 : S64.ShapeCasts S16x4
  slices_S64x2_S64x1_0_1 : S64x2.Slices ![0, 1] S64x1
  bcast_S1x4_S16x4_0_1 : S1x4.BroadcastsInDim S16x4 (![0, 1] : Fin 2 → Fin S16x4.rank)
  bcast_S_S16x4 : S_.BroadcastsInDim S16x4 (![] : Fin 0 → Fin S16x4.rank)
  reducesTo_S16x4_S_d0_1 : S16x4.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x512.size a ≤ S64x512x512.size a
  hwx0_0 : ∀ i : grid0.Coords, EltTy.bits .f32 = 32 ∨ (Rect.block (s := S64x512x512) S8x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x512.size a ≤ S64x512x512.size a
  hwx0_1 : ∀ i : grid0.Coords, EltTy.bits .f32 = 32 ∨ (Rect.block (s := S64x512x512) S8x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x2.size a ≤ S64x2.size a
  hwx0_2 : ∀ i : grid0.Coords, EltTy.bits .f32 = 32 ∨ (Rect.block (s := S64x2) S8x2.size (cc0_transform_2 i) (hinb0_2 i)).WholeWords (EltTy.packing .f32)

variable [Facts₀]

abbrev win0_0 : Pipeline.Window sig grid0 :=
  Pipeline.Window.ofSpec (Memref.whole main_v0) S8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4x512x512 : Shape := ⟨4, ![16, 4, 512, 512]⟩
abbrev S1x4 : Shape := ⟨2, ![1, 4]⟩
abbrev S_ : Shape := ⟨0, ![]⟩
abbrev S16x4x514x514 : Shape := ⟨4, ![16, 4, 514, 514]⟩
abbrev S16x4x512 : Shape := ⟨3, ![16, 4, 512]⟩
abbrev S16x4x514 : Shape := ⟨3, ![16, 4, 514]⟩
abbrev S16x4 : Shape := ⟨2, ![16, 4]⟩

abbrev nBuf : Space → Nat
  | .hbm => 191
  | .vmem => 0
  | .smem => 0
  | _ => 0

abbrev hbmTy0_0 (i : Nat) : BufTy := match i % 128 with
  | 0 => ⟨S16x4x512x512, .f32⟩
  | 1 => ⟨S16x4x512x512, .f32⟩
  | 2 => ⟨S1x4, .f32⟩
  | 3 => ⟨S_, .f32⟩
  | 4 => ⟨S16x4x512x512, .f32⟩
  | 5 => ⟨S16x4x512x512, .f32⟩
  | 6 => ⟨S_, .f32⟩
  | 7 => ⟨S16x4x512x512, .f32⟩
  | 8 => ⟨S16x4x512x512, .f32⟩
  | 9 => ⟨S16x4x512x512, .f32⟩
  | 10 => ⟨S16x4x512x512, .f32⟩
  | 11 => ⟨S_, .f32⟩
  | 12 => ⟨S16x4x512x512, .f32⟩
  | 13 => ⟨S16x4x512x512, .f32⟩
  | 14 => ⟨S_, .f32⟩
  | 15 => ⟨S16x4x512x512, .f32⟩
  | 16 => ⟨S16x4x512x512, .f32⟩
  | 17 => ⟨S_, .f32⟩
  | 18 => ⟨S16x4x512x512, .f32⟩
  | 19 => ⟨S16x4x512x512, .f32⟩
  | 20 => ⟨S_, .f32⟩
  | 21 => ⟨S16x4x512x512, .f32⟩
  | 22 => ⟨S16x4x512x512, .f32⟩
  | 23 => ⟨S16x4x512x512, .f32⟩
  | 24 => ⟨S16x4x512x512, .f32⟩
  | 25 => ⟨S_, .f32⟩
  | 26 => ⟨S16x4x512x512, .f32⟩
  | 27 => ⟨S16x4x512x512, .f32⟩
  | 28 => ⟨S_, .f32⟩
  | 29 => ⟨S16x4x512x512, .f32⟩
  | 30 => ⟨S16x4x512x512, .f32⟩
  | 31 => ⟨S_, .i32⟩
  | 32 => ⟨S_, .f32⟩
  | 33 => ⟨S16x4x514x514, .f32⟩
  | 34 => ⟨S16x4x512x512, .f32⟩
  | 35 => ⟨S16x4x512x512, .f32⟩
  | 36 => ⟨S16x4x512x512, .f32⟩
  | 37 => ⟨S16x4x512x512, .f32⟩
  | 38 => ⟨S_, .f32⟩
  | 39 => ⟨S16x4x512x512, .f32⟩
  | 40 => ⟨S16x4x512x512, .f32⟩
  | 41 => ⟨S_, .f32⟩
  | 42 => ⟨S16x4x512x512, .f32⟩
  | 43 => ⟨S16x4x512x512, .f32⟩
  | 44 => ⟨S16x4x512x512, .f32⟩
  | 45 => ⟨S16x4x512x512, .f32⟩
  | 46 => ⟨S_, .f32⟩
  | 47 => ⟨S16x4x512x512, .f32⟩
  | 48 => ⟨S16x4x512x512, .f32⟩
  | 49 => ⟨S_, .f32⟩
  | 50 => ⟨S16x4x512x512, .f32⟩
  | 51 => ⟨S16x4x512x512, .f32⟩
  | 52 => ⟨S_, .f32⟩
  | 53 => ⟨S16x4x512, .f32⟩
  | 54 => ⟨S_, .i32⟩
  | 55 => ⟨S_, .f32⟩
  | 56 => ⟨S16x4x514, .f32⟩
  | 57 => ⟨S16x4x512, .f32⟩
  | 58 => ⟨S16x4x512, .f32⟩
  | 59 => ⟨S16x4x512, .f32⟩
  | 60 => ⟨S16x4x512, .f32⟩
  | 61 => ⟨S_, .f32⟩
  | 62 => ⟨S16x4, .f32⟩
  | 63 => ⟨S_, .f32⟩
  | 64 => ⟨S16x4, .f32⟩
  | 65 => ⟨S16x4, .f32⟩
  | 66 => ⟨S16x4, .f32⟩
  | 67 => ⟨S16x4, .f32⟩
  | 68 => ⟨S_, .i32⟩
  | 69 => ⟨S_, .f32⟩
  | 70 => ⟨S16x4x514x514, .f32⟩
  | 71 => ⟨S16x4x512x512, .f32⟩
  | 72 => ⟨S16x4x512x512, .f32⟩
  | 73 => ⟨S16x4x512x512, .f32⟩
  | 74 => ⟨S16x4x512x512, .f32⟩
  | 75 => ⟨S_, .f32⟩
  | 76 => ⟨S16x4x512x512, .f32⟩
  | 77 => ⟨S16x4x512x512, .f32⟩
  | 78 => ⟨S_, .f32⟩
  | 79 => ⟨S16x4x512x512, .f32⟩
  | 80 => ⟨S16x4x512x512, .f32⟩
  | 81 => ⟨S16x4x512x512, .f32⟩
  | 82 => ⟨S16x4x512x512, .f32⟩
  | 83 => ⟨S_, .f32⟩
  | 84 => ⟨S16x4x512x512, .f32⟩
  | 85 => ⟨S16x4x512x512, .f32⟩
  | 86 => ⟨S_, .f32⟩
  | 87 => ⟨S16x4x512x512, .f32⟩
  | 88 => ⟨S16x4x512x512, .f32⟩
  | 89 => ⟨S_, .f32⟩
  | 90 => ⟨S16x4x512, .f32⟩
  | 91 => ⟨S_, .i32⟩
  | 92 => ⟨S_, .f32⟩
  | 93 => ⟨S16x4x514, .f32⟩
  | 94 => ⟨S16x4x512, .f32⟩
  | 95 => ⟨S16x4x512, .f32⟩
  | 96 => ⟨S16x4x512, .f32⟩
  | 97 => ⟨S16x4x512, .f32⟩
  | 98 => ⟨S_, .f32⟩
  | 99 => ⟨S16x4, .f32⟩
  | 100 => ⟨S_, .f32⟩
  | 101 => ⟨S16x4, .f32⟩
  | 102 => ⟨S16x4, .f32⟩
  | 103 => ⟨S16x4, .f32⟩
  | 104 => ⟨S16x4, .f32⟩
  | 105 => ⟨S_, .i32⟩
  | 106 => ⟨S_, .f32⟩
  | 107 => ⟨S16x4x514x514, .f32⟩
  | 108 => ⟨S16x4x512x512, .f32⟩
  | 109 => ⟨S16x4x512x512, .f32⟩
  | 110 => ⟨S16x4x512x512, .f32⟩
  | 111 => ⟨S16x4x512x512, .f32⟩
  | 112 => ⟨S_, .f32⟩
  | 113 => ⟨S16x4x512x512, .f32⟩
  | 114 => ⟨S16x4x512x512, .f32⟩
  | 115 => ⟨S_, .f32⟩
  | 116 => ⟨S16x4x512x512, .f32⟩
  | 117 => ⟨S16x4x512x512, .f32⟩
  | 118 => ⟨S16x4x512x512, .f32⟩
  | 119 => ⟨S16x4x512x512, .f32⟩
  | 120 => ⟨S_, .f32⟩
  | 121 => ⟨S16x4x512x512, .f32⟩
  | 122 => ⟨S16x4x512x512, .f32⟩
  | 123 => ⟨S_, .f32⟩
  | 124 => ⟨S16x4x512x512, .f32⟩
  | 125 => ⟨S16x4x512x512, .f32⟩
  | 126 => ⟨S_, .f32⟩
  | 127 => ⟨S16x4x512, .f32⟩
  | _ => ⟨S16x4x512x512, .f32⟩

abbrev hbmTy0_1 (i : Nat) : BufTy := match i % 128 with
  | 0 => ⟨S_, .i32⟩
  | 1 => ⟨S_, .f32⟩
  | 2 => ⟨S16x4x514, .f32⟩
  | 3 => ⟨S16x4x512, .f32⟩
  | 4 => ⟨S16x4x512, .f32⟩
  | 5 => ⟨S16x4x512, .f32⟩
  | 6 => ⟨S16x4x512, .f32⟩
  | 7 => ⟨S_, .f32⟩
  | 8 => ⟨S16x4, .f32⟩
  | 9 => ⟨S_, .f32⟩
  | 10 => ⟨S16x4, .f32⟩
  | 11 => ⟨S16x4, .f32⟩
  | 12 => ⟨S16x4, .f32⟩
  | 13 => ⟨S16x4, .f32⟩
  | 14 => ⟨S_, .i32⟩
  | 15 => ⟨S_, .f32⟩
  | 16 => ⟨S16x4x514x514, .f32⟩
  | 17 => ⟨S16x4x512x512, .f32⟩
  | 18 => ⟨S16x4x512x512, .f32⟩
  | 19 => ⟨S16x4x512x512, .f32⟩
  | 20 => ⟨S16x4x512x512, .f32⟩
  | 21 => ⟨S_, .f32⟩
  | 22 => ⟨S16x4x512x512, .f32⟩
  | 23 => ⟨S16x4x512x512, .f32⟩
  | 24 => ⟨S_, .f32⟩
  | 25 => ⟨S16x4x512x512, .f32⟩
  | 26 => ⟨S16x4x512x512, .f32⟩
  | 27 => ⟨S16x4x512x512, .f32⟩
  | 28 => ⟨S16x4x512x512, .f32⟩
  | 29 => ⟨S_, .f32⟩
  | 30 => ⟨S16x4x512x512, .f32⟩
  | 31 => ⟨S16x4x512x512, .f32⟩
  | 32 => ⟨S_, .f32⟩
  | 33 => ⟨S16x4x512x512, .f32⟩
  | 34 => ⟨S16x4x512x512, .f32⟩
  | 35 => ⟨S_, .f32⟩
  | 36 => ⟨S16x4x512, .f32⟩
  | 37 => ⟨S_, .i32⟩
  | 38 => ⟨S_, .f32⟩
  | 39 => ⟨S16x4x514, .f32⟩
  | 40 => ⟨S16x4x512, .f32⟩
  | 41 => ⟨S16x4x512, .f32⟩
  | 42 => ⟨S16x4x512, .f32⟩
  | 43 => ⟨S16x4x512, .f32⟩
  | 44 => ⟨S_, .f32⟩
  | 45 => ⟨S16x4, .f32⟩
  | 46 => ⟨S_, .f32⟩
  | 47 => ⟨S16x4, .f32⟩
  | 48 => ⟨S16x4, .f32⟩
  | 49 => ⟨S16x4, .f32⟩
  | 50 => ⟨S16x4, .f32⟩
  | 51 => ⟨S16x4, .f32⟩
  | 52 => ⟨S16x4, .f32⟩
  | 53 => ⟨S16x4, .f32⟩
  | 54 => ⟨S16x4, .f32⟩
  | 55 => ⟨S16x4, .f32⟩
  | 56 => ⟨S_, .f32⟩
  | 57 => ⟨S16x4, .f32⟩
  | 58 => ⟨S16x4, .f32⟩
  | 59 => ⟨S_, .f32⟩
  | 60 => ⟨S_, .f32⟩
  | 61 => ⟨S_, .f32⟩
  | 62 => ⟨S_, .f32⟩
  | _ => ⟨S16x4x512x512, .f32⟩

abbrev hbmTy (i : Nat) : BufTy := match i / 128 with
  | 0 => hbmTy0_0 i
  | 1 => hbmTy0_1 i
  | _ => ⟨S16x4x512x512, .f32⟩

abbrev bufTy : (tb : Table) → Fin (tcTables nBuf tb) → BufTy
  | .hbm, ⟨i, _⟩ => hbmTy i
  | _, _ => ⟨S16x4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_cst_6 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_call0_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_c_12 : Ref sig .tc := ⟨.hbm, 54, rfl⟩
abbrev main_call1_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_13 : Ref sig .tc := ⟨.hbm, 61, rfl⟩
abbrev main_v41 : Ref sig .tc := ⟨.hbm, 62, rfl⟩
abbrev main_cst_14 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_15 : Ref sig .tc := ⟨.hbm, 68, rfl⟩
abbrev main_call2_v0 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_16 : Ref sig .tc := ⟨.hbm, 75, rfl⟩
abbrev main_v51 : Ref sig .tc := ⟨.hbm, 76, rfl⟩
abbrev main_v52 : Ref sig .tc := ⟨.hbm, 77, rfl⟩
abbrev main_cst_17 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_18 : Ref sig .tc := ⟨.hbm, 83, rfl⟩
abbrev main_v57 : Ref sig .tc := ⟨.hbm, 84, rfl⟩
abbrev main_v58 : Ref sig .tc := ⟨.hbm, 85, rfl⟩
abbrev main_cst_19 : Ref sig .tc := ⟨.hbm, 86, rfl⟩
abbrev main_v59 : Ref sig .tc := ⟨.hbm, 87, rfl⟩
abbrev main_v60 : Ref sig .tc := ⟨.hbm, 88, rfl⟩
abbrev main_cst_20 : Ref sig .tc := ⟨.hbm, 89, rfl⟩
abbrev main_v61 : Ref sig .tc := ⟨.hbm, 90, rfl⟩
abbrev main_c_21 : Ref sig .tc := ⟨.hbm, 91, rfl⟩
abbrev main_call3_v0 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_22 : Ref sig .tc := ⟨.hbm, 98, rfl⟩
abbrev main_v67 : Ref sig .tc := ⟨.hbm, 99, rfl⟩
abbrev main_cst_23 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_24 : Ref sig .tc := ⟨.hbm, 105, rfl⟩
abbrev main_call4_v0 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_25 : Ref sig .tc := ⟨.hbm, 112, rfl⟩
abbrev main_v77 : Ref sig .tc := ⟨.hbm, 113, rfl⟩
abbrev main_v78 : Ref sig .tc := ⟨.hbm, 114, rfl⟩
abbrev main_cst_26 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_27 : Ref sig .tc := ⟨.hbm, 120, rfl⟩
abbrev main_v83 : Ref sig .tc := ⟨.hbm, 121, rfl⟩
abbrev main_v84 : Ref sig .tc := ⟨.hbm, 122, rfl⟩
abbrev main_cst_28 : Ref sig .tc := ⟨.hbm, 123, rfl⟩
abbrev main_v85 : Ref sig .tc := ⟨.hbm, 124, rfl⟩
abbrev main_v86 : Ref sig .tc := ⟨.hbm, 125, rfl⟩
abbrev main_cst_29 : Ref sig .tc := ⟨.hbm, 126, rfl⟩
abbrev main_v87 : Ref sig .tc := ⟨.hbm, 127, rfl⟩
abbrev main_c_30 : Ref sig .tc := ⟨.hbm, 128, rfl⟩
abbrev main_call5_v0 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_31 : Ref sig .tc := ⟨.hbm, 135, rfl⟩
abbrev main_v93 : Ref sig .tc := ⟨.hbm, 136, rfl⟩
abbrev main_cst_32 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_c_33 : Ref sig .tc := ⟨.hbm, 142, rfl⟩
abbrev main_call6_v0 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_34 : Ref sig .tc := ⟨.hbm, 149, rfl⟩
abbrev main_v103 : Ref sig .tc := ⟨.hbm, 150, rfl⟩
abbrev main_v104 : Ref sig .tc := ⟨.hbm, 151, rfl⟩
abbrev main_cst_35 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_cst_36 : Ref sig .tc := ⟨.hbm, 157, rfl⟩
abbrev main_v109 : Ref sig .tc := ⟨.hbm, 158, rfl⟩
abbrev main_v110 : Ref sig .tc := ⟨.hbm, 159, rfl⟩
abbrev main_cst_37 : Ref sig .tc := ⟨.hbm, 160, rfl⟩
abbrev main_v111 : Ref sig .tc := ⟨.hbm, 161, rfl⟩
abbrev main_v112 : Ref sig .tc := ⟨.hbm, 162, rfl⟩
abbrev main_cst_38 : Ref sig .tc := ⟨.hbm, 163, rfl⟩
abbrev main_v113 : Ref sig .tc := ⟨.hbm, 164, rfl⟩
abbrev main_c_39 : Ref sig .tc := ⟨.hbm, 165, rfl⟩
abbrev main_call7_v0 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_cst_40 : Ref sig .tc := ⟨.hbm, 172, rfl⟩
abbrev main_v119 : Ref sig .tc := ⟨.hbm, 173, rfl⟩
abbrev main_cst_41 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_cst_42 : Ref sig .tc := ⟨.hbm, 184, rfl⟩
abbrev main_v129 : Ref sig .tc := ⟨.hbm, 185, rfl⟩
abbrev main_v130 : Ref sig .tc := ⟨.hbm, 186, rfl⟩
abbrev main_cst_43 : Ref sig .tc := ⟨.hbm, 187, rfl⟩
abbrev main_v131 : Ref sig .tc := ⟨.hbm, 188, rfl⟩
abbrev main_cst_44 : Ref sig .tc := ⟨.hbm, 189, rfl⟩
abbrev main_v132 : Ref sig .tc := ⟨.hbm, 190, rfl⟩

abbrev nD : Nat := 1
abbrev τ : Topo := Topo.v7x

variable {F : FTy → Type} [FloatOps F]

class Facts₀ : Prop where
  bcast_S_S16x4x512x512 : S_.BroadcastsInDim S16x4x512x512 (![] : Fin 0 → Fin S16x4x512x512.rank)
  pads_S16x4x512x512_S16x4x514x514_000_000_110_110 : S16x4x512x512.Pads (![0, 0, 1, 1] : Fin 4 → Nat) ![0, 0, 1, 1] ![0, 0, 0, 0] S16x4x514x514
  h_S_ : 0 < S_.numel
  slices_S16x4x514x514_S16x4x512x512_0_0_2_0 : S16x4x514x514.Slices ![0, 0, 2, 0] S16x4x512x512
  slices_S16x4x514x514_S16x4x512x512_0_0_0_0 : S16x4x514x514.Slices ![0, 0, 0, 0] S16x4x512x512
  reducesTo_S16x4x512x512_S16x4x512_d2 : S16x4x512x512.ReducesTo [2] S16x4x512
  pads_S16x4x512_S16x4x514_000_000_110 : S16x4x512.Pads (![0, 0, 1] : Fin 3 → Nat) ![0, 0, 1] ![0, 0, 0] S16x4x514
  slices_S16x4x514_S16x4x512_0_0_2 : S16x4x514.Slices ![0, 0, 2] S16x4x512
  slices_S16x4x514_S16x4x512_0_0_0 : S16x4x514.Slices ![0, 0, 0] S16x4x512
  reducesTo_S16x4x512_S16x4_d2 : S16x4x512.ReducesTo [2] S16x4
  bcast_S_S16x4 : S_.BroadcastsInDim S16x4 (![] : Fin 0 → Fin S16x4.rank)
  bcast_S1x4_S16x4_0_1 : S1x4.BroadcastsInDim S16x4 (![0, 1] : Fin 2 → Fin S16x4.rank)
  slices_S16x4x514x514_S16x4x512x512_0_0_0_2 : S16x4x514x514.Slices ![0, 0, 0, 2] S16x4x512x512
  reducesTo_S16x4x512x512_S16x4x512_d3 : S16x4x512x512.ReducesTo [3] S16x4x512
  reducesTo_S16x4_S_d0_1 : S16x4.ReducesTo [0, 1] S_

variable [Facts₀]

class Facts : Prop extends Facts₀ where

variable [Facts]
-- ==== Proof.LibIsReal.lean ====
/-
  Extended reals that are real numbers, and a real weight moved across absolute differences.

  `IsReal x` says the extended real `x` is (the image of) a real number. Real numbers are closed under sums,
  differences, the absolute value taken as the larger of `x` and `-x` (`absE`), and finite sums (`isReal_sum`), so a
  quantity built from real pieces by these operations stays away from both infinities, where the extended reals do
  not distribute. For real `A B C D w` (`weighted_abs`):
    |A w - B w| + |C w - D w| = |w| (|A - B| + |C - D|).
  Nothing here mentions a program: the file depends on Mathlib's extended reals only.
-/
import Mathlib.Data.EReal.Basic
import Mathlib.Data.EReal.Operations
import Mathlib.Algebra.BigOperators.Group.Finset.Basic
import Mathlib.Algebra.Order.AbsoluteValue.Basic
import Mathlib.Tactic.Ring

noncomputable section

namespace Cert.EdgeLoss

/-- The absolute value as both programs take it: the larger of `x` and `-x`. -/
def absE (x : EReal) : EReal := max x (-x)

/-- An extended real that is a real number. -/
def IsReal (x : EReal) : Prop := ∃ r : ℝ, x = (r : EReal)

theorem isReal_zero : IsReal 0 := ⟨0, EReal.coe_zero.symm⟩

/-- The inclusion of the reals is monotone, so it commutes with the larger of two numbers. -/
theorem coe_max (a b : ℝ) : ((max a b : ℝ) : EReal) = max (a : EReal) (b : EReal) :=
  EReal.coe_strictMono.monotone.map_max

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.absE {x : EReal} (hx : IsReal x) : IsReal (absE x) := by
  obtain ⟨a, rfl⟩ := hx
  exact ⟨max a (-a), by rw [Cert.EdgeLoss.absE, coe_max, EReal.coe_neg]⟩

theorem isReal_sum {ι : Type} (s : Finset ι) (f : ι → EReal) (hf : ∀ i ∈ s, IsReal (f i)) : IsReal (∑ i ∈ s, f i) := by
  classical
  induction s using Finset.induction_on with
  | empty => rw [Finset.sum_empty]; exact isReal_zero
  | insert a s ha ih =>
    rw [Finset.sum_insert ha]
    exact (hf a (Finset.mem_insert_self a s)).add (ih fun i hi => hf i (Finset.mem_insert_of_mem hi))

/-! ## A finite weight moves across the differences -/

/-- For real numbers, |A w - B w| + |C w - D w| = |w| (|A - B| + |C - D|): the reference weights each structure
    before it subtracts, the kernel weights the sum of the two absolute differences. -/
theorem weighted_abs {A B C D w : EReal} (hA : IsReal A) (hB : IsReal B) (hC : IsReal C) (hD : IsReal D) (hw : IsReal w) :
    absE (A * w - B * w) + absE (C * w - D * w) = absE w * (absE (A - B) + absE (C - D)) := by
  obtain ⟨a, rfl⟩ := hA; obtain ⟨b, rfl⟩ := hB; obtain ⟨c, rfl⟩ := hC; obtain ⟨d, rfl⟩ := hD; obtain ⟨v, rfl⟩ := hw
  simp only [absE, ← EReal.coe_mul, ← EReal.coe_sub, ← EReal.coe_neg, ← coe_max, ← EReal.coe_add]
  refine congrArg _ ?_
  simp only [← abs_eq_max_neg]
  rw [← sub_mul, ← sub_mul, abs_mul, abs_mul]
  ring

end Cert.EdgeLoss

end
-- ==== Proof.Spec.lean ====
/-
  The mathematics both programs compute, stated once over the extended reals.

  A plane is a 512 x 512 array. Its gated plane is `gate` of every entry, where `gate z` is the logistic function of
  `(z - 1/2) * 10`. The gated plane is set inside a 514 x 514 frame of zeros (`frame`). Along the rows one takes, at
  every position of the 512 x 512 window, the gate of the absolute difference of the framed entries two rows apart,
  and sums each column (`colGate`); along the columns the same with entries two columns apart, summing each row
  (`rowGate`). Either vector of 512 sums is again framed by one zero at each end (`frameRow`), and the absolute
  differences of framed entries two apart are summed and divided by four (`edge`). These are the plane's two edge
  structures, `structX` and `structY`.

  A logistic value is a real number in [0, 1] whatever its argument, infinite arguments included, so both
  structures are real numbers for EVERY plane (`isReal_structX`, `isReal_structY`); that is what lets a finite weight
  be moved across the differences (`weighted_abs`, in Proof/LibIsReal.lean): |A w - B w| + |C w - D w| = |w| (|A - B| + |C - D|).
-/
import Idealize.ShloMosaic.PureOps.Ideal
import Idealize.ShloMosaic.PureOps.Ideal.Laws
import Idealize.ShloMosaic.Lib.ValueIdx
import Idealize.ShloMosaic.Lib.IdealHost
import proofs.«116852_j52544629900023_2_alg».proof.Proof.LibIsReal

noncomputable section

namespace Cert.EdgeLoss

open Idealize.ShloMosaic

/-- The gate: the logistic function of `(z - 1/2) * 10`. -/
def gate (z : EReal) : EReal :=
  Ideal.logistic ((z - Ideal.ofBits .f32 0x3F000000#32) * Ideal.ofBits .f32 0x41200000#32)

/-- A plane inside a frame of zeros one entry wide, at natural-number coordinates of the 514 x 514 frame. -/
def frame (q : Fin 512 → Fin 512 → EReal) (h w : ℕ) : EReal :=
  if hw : 1 ≤ w ∧ w ≤ 512 then (if hh : 1 ≤ h ∧ h ≤ 512 then q ⟨h - 1, by omega⟩ ⟨w - 1, by omega⟩ else 0) else 0

/-- A vector of 512 entries with one zero before it and one after it, at a natural-number coordinate. -/
def frameRow (s : Fin 512 → EReal) (j : ℕ) : EReal :=
  if hj : 1 ≤ j ∧ j ≤ 512 then s ⟨j - 1, by omega⟩ else 0

/-- Column `w`'s sum over the rows of the gated absolute difference of framed entries two rows apart. -/
def colGate (P : ℕ → ℕ → EReal) (w : Fin 512) : EReal :=
  ∑ h : Fin 512, gate (absE (P (h.val + 2) w.val - P h.val w.val))

/-- Row `h`'s sum over the columns of the gated absolute difference of framed entries two columns apart. -/
def rowGate (P : ℕ → ℕ → EReal) (h : Fin 512) : EReal :=
  ∑ w : Fin 512, gate (absE (P h.val (w.val + 2) - P h.val w.val))

/-- The sum of the absolute differences of framed entries two apart, over four. -/
def edge (s : Fin 512 → EReal) : EReal :=
  Ideal.div (∑ j : Fin 512, absE (frameRow s (j.val + 2) - frameRow s j.val)) (Ideal.ofBits .f32 0x40800000#32)

/-- The edge structure across the rows of a plane. -/
def structX (q : Fin 512 → Fin 512 → EReal) : EReal := edge (colGate (frame fun h w => gate (q h w)))

/-- The edge structure across the columns of a plane. -/
def structY (q : Fin 512 → Fin 512 → EReal) : EReal := edge (rowGate (frame fun h w => gate (q h w)))

/-! ## Every structure is a real number -/

/-- The logistic function takes real values only: 0 at minus infinity, 1 at plus infinity. -/
theorem isReal_gate (z : EReal) : IsReal (gate z) := by
  unfold gate
  generalize (z - Ideal.ofBits .f32 0x3F000000#32) * Ideal.ofBits .f32 0x41200000#32 = y
  induction y using EReal.rec with
  | bot => exact ⟨0, by rw [Ideal.logistic_bot, EReal.coe_zero]⟩
  | coe r => exact ⟨_, Ideal.logistic_coe r⟩
  | top => exact ⟨1, by rw [Ideal.logistic_top, EReal.coe_one]⟩

/-- The pattern `0x40800000` is the real number four. -/
theorem ofBits_four : Ideal.ofBits .f32 0x40800000#32 = ((4 : ℝ) : EReal) := by
  simp [Ideal.ofBits, Ideal.ieee, -EReal.coe_mul]; norm_num

theorem IsReal.div_four {x : EReal} (hx : IsReal x) : IsReal (Ideal.div x (Ideal.ofBits .f32 0x40800000#32)) := by
  obtain ⟨a, rfl⟩ := hx
  rw [ofBits_four, Ideal.div_coe (by norm_num : (4 : ℝ) ≠ 0)]
  exact ⟨a * (1 / 4), (EReal.coe_mul _ _).symm⟩

theorem isReal_frame {q : Fin 512 → Fin 512 → EReal} (hq : ∀ h w, IsReal (q h w)) (h w : ℕ) : IsReal (frame q h w) := by
  unfold frame
  split
  · split
    · exact hq _ _
    · exact isReal_zero
  · exact isReal_zero

theorem isReal_frameRow {s : Fin 512 → EReal} (hs : ∀ j, IsReal (s j)) (j : ℕ) : IsReal (frameRow s j) := by
  unfold frameRow
  split
  · exact hs _
  · exact isReal_zero

theorem isReal_colGate (P : ℕ → ℕ → EReal) (w : Fin 512) : IsReal (colGate P w) :=
  isReal_sum _ _ fun _ _ => isReal_gate _

theorem isReal_rowGate (P : ℕ → ℕ → EReal) (h : Fin 512) : IsReal (rowGate P h) :=
  isReal_sum _ _ fun _ _ => isReal_gate _

theorem isReal_edge {s : Fin 512 → EReal} (hs : ∀ j, IsReal (s j)) : IsReal (edge s) :=
  (isReal_sum _ _ fun _ _ => ((isReal_frameRow hs _).sub (isReal_frameRow hs _)).absE).div_four

theorem isReal_structX (q : Fin 512 → Fin 512 → EReal) : IsReal (structX q) := isReal_edge (isReal_colGate _)

theorem isReal_structY (q : Fin 512 → Fin 512 → EReal) : IsReal (structY q) := isReal_edge (isReal_rowGate _)

end Cert.EdgeLoss

end
-- ==== Proof.KernelVec.lean ====
/-
  The kernel's vector steps that are not entry-by-entry, each read at an index of explicit coordinates.

  A block is eight planes. Joining a zero splat before and after an array along one axis puts the array inside a
  frame of zeros on that axis: entry `a` of the result is the array's entry `a - 1` when `1 ≤ a ≤ 512`, and zero at
  the two ends (`padRows_apply` along the rows, `padCols_apply` along the columns, `padVec_apply` for the vectors of
  512 sums). A slice at an offset reads the entry that many places further (`slice3_apply`, `slice2_apply`), and a sum
  along one axis is a sum over that axis's 512 coordinates (`sumRows_apply`, `sumCols_apply`, `sumVec_apply`).
-/
import proofs.«116852_j52544629900023_2_alg».proof.KernelIdeal
import proofs.«116852_j52544629900023_2_alg».proof.Proof.Spec
import Idealize.ShloMosaic.Lib.Pipeline.Value
import Idealize.ShloMosaic.Lib.ValueIdx
import Idealize.ShloMosaic.Lib.KernelVsHost
import Idealize.ShloMosaic.PureOps.Ideal.Laws

noncomputable section

namespace Cert.EdgeLoss.KVec

open Idealize.ShloMosaic Idealize.ShloMosaic.ValueIdx Cert.KernelIdeal

/-! ## A frame of zeros along one axis -/

/-- Rows: a zero row before and after each plane's 512 rows. -/
theorem padRows_apply {α : Type} (z : α) (v : S8x512x512.Idx → α)
    (h1 : Shape.Concatenates [S8x1x512, S8x512x512] S8x513x512 1)
    (h2 : Shape.Concatenates [S8x513x512, S8x1x512] S8x514x512 1)
    (p : Fin 8) (a : Fin 514) (w : Fin 512) :
    concatenate S8x514x512 1
        [⟨S8x513x512, concatenate S8x513x512 1 [⟨S8x1x512, broadcast S8x1x512 z⟩, ⟨S8x512x512, v⟩] h1⟩,
         ⟨S8x1x512, broadcast S8x1x512 z⟩] h2 (ix3 p a w)
      = if ha : 1 ≤ a.val ∧ a.val ≤ 512 then v (ix3 p ⟨a.val - 1, by omega⟩ w) else z := by
  by_cases hhi : a.val < 513
  · rw [concatenate_pair_apply_left 1 _ _ h2 (ix3 p a w) rfl (ix3 p ⟨a.val, hhi⟩ w)
      (by intro b; fin_cases b <;> rfl)]
    by_cases hlo : 1 ≤ a.val
    · rw [concatenate_pair_apply_right 1 _ _ h1 (ix3 p ⟨a.val, hhi⟩ w) rfl rfl (ix3 p ⟨a.val - 1, by omega⟩ w)
        (by intro b hb; fin_cases b <;> first | rfl | exact absurd rfl hb)
        (by show a.val - 1 + 1 = a.val; omega),
        dif_pos ⟨hlo, by omega⟩]
    · rw [concatenate_pair_apply_left 1 _ _ h1 (ix3 p ⟨a.val, hhi⟩ w) rfl (ix3 p ⟨0, by omega⟩ w)
        (by intro b; fin_cases b <;> first | rfl | (show 0 = a.val; omega)),
        dif_neg (by omega)]
      rfl
  · rw [concatenate_pair_apply_right 1 _ _ h2 (ix3 p a w) rfl rfl (ix3 p ⟨0, by omega⟩ w)
      (by intro b hb; fin_cases b <;> first | rfl | exact absurd rfl hb)
      (by show 0 + 513 = a.val; have := a.isLt; omega),
      dif_neg (by omega)]
    rfl

/-- Columns: a zero column before and after each plane's 512 columns. -/
theorem padCols_apply {α : Type} (z : α) (u : S8x514x512.Idx → α)
    (h3 : Shape.Concatenates [S8x514x1, S8x514x512] S8x514x513 2)
    (h4 : Shape.Concatenates [S8x514x513, S8x514x1] S8x514x514 2)
    (p : Fin 8) (a : Fin 514) (b : Fin 514) :
    concatenate S8x514x514 2
        [⟨S8x514x513, concatenate S8x514x513 2 [⟨S8x514x1, broadcast S8x514x1 z⟩, ⟨S8x514x512, u⟩] h3⟩,
         ⟨S8x514x1, broadcast S8x514x1 z⟩] h4 (ix3 p a b)
      = if hb : 1 ≤ b.val ∧ b.val ≤ 512 then u (ix3 p a ⟨b.val - 1, by omega⟩) else z := by
  by_cases hhi : b.val < 513
  · rw [concatenate_pair_apply_left 2 _ _ h4 (ix3 p a b) rfl (ix3 p a ⟨b.val, hhi⟩)
      (by intro d; fin_cases d <;> rfl)]
    by_cases hlo : 1 ≤ b.val
    · rw [concatenate_pair_apply_right 2 _ _ h3 (ix3 p a ⟨b.val, hhi⟩) rfl rfl (ix3 p a ⟨b.val - 1, by omega⟩)
        (by intro d hd; fin_cases d <;> first | rfl | exact absurd rfl hd)
        (by show b.val - 1 + 1 = b.val; omega),
        dif_pos ⟨hlo, by omega⟩]
    · rw [concatenate_pair_apply_left 2 _ _ h3 (ix3 p a ⟨b.val, hhi⟩) rfl (ix3 p a ⟨0, by omega⟩)
        (by intro d; fin_cases d <;> first | rfl | (show 0 = b.val; omega)),
        dif_neg (by omega)]
      rfl
  · rw [concatenate_pair_apply_right 2 _ _ h4 (ix3 p a b) rfl rfl (ix3 p a ⟨0, by omega⟩)
      (by intro d hd; fin_cases d <;> first | rfl | exact absurd rfl hd)
      (by show 0 + 513 = b.val; have := b.isLt; omega),
      dif_neg (by omega)]
    rfl

/-- The vectors of 512 sums: a zero before and after each. -/
theorem padVec_apply {α : Type} (z : α) (s : S8x512.Idx → α)
    (h5 : Shape.Concatenates [S8x1, S8x512] S8x513 1)
    (h6 : Shape.Concatenates [S8x513, S8x1] S8x514 1)
    (p : Fin 8) (j : Fin 514) :
    concatenate S8x514 1
        [⟨S8x513, concatenate S8x513 1 [⟨S8x1, broadcast S8x1 z⟩, ⟨S8x512, s⟩] h5⟩,
         ⟨S8x1, broadcast S8x1 z⟩] h6 (ix2 p j)
      = if hj : 1 ≤ j.val ∧ j.val ≤ 512 then s (ix2 p ⟨j.val - 1, by omega⟩) else z := by
  by_cases hhi : j.val < 513
  · rw [concatenate_pair_apply_left 1 _ _ h6 (ix2 p j) rfl (ix2 p ⟨j.val, hhi⟩)
      (by intro d; fin_cases d <;> rfl)]
    by_cases hlo : 1 ≤ j.val
    · rw [concatenate_pair_apply_right 1 _ _ h5 (ix2 p ⟨j.val, hhi⟩) rfl rfl (ix2 p ⟨j.val - 1, by omega⟩)
        (by intro d hd; fin_cases d <;> first | rfl | exact absurd rfl hd)
        (by show j.val - 1 + 1 = j.val; omega),
        dif_pos ⟨hlo, by omega⟩]
    · rw [concatenate_pair_apply_left 1 _ _ h5 (ix2 p ⟨j.val, hhi⟩) rfl (ix2 p ⟨0, by omega⟩)
        (by intro d; fin_cases d <;> first | rfl | (show 0 = j.val; omega)),
        dif_neg (by omega)]
      rfl
  · rw [concatenate_pair_apply_right 1 _ _ h6 (ix2 p j) rfl rfl (ix2 p ⟨0, by omega⟩)
      (by intro d hd; fin_cases d <;> first | rfl | exact absurd rfl hd)
      (by show 0 + 513 = j.val; have := j.isLt; omega),
      dif_neg (by omega)]
    rfl

/-! ## Slices two apart -/

/-- A 512 x 512 window of the framed planes at row offset `o1` and column offset `o2`. -/
theorem slice3_apply {α : Type} (o1 o2 : ℕ) (P : S8x514x514.Idx → α) (hs : S8x514x514.Slices ![0, o1, o2] S8x512x512)
    (p : Fin 8) (h w : Fin 512) (hb1 : h.val + o1 < 514) (hb2 : w.val + o2 < 514) :
    extractStridedSlice S8x512x512 ![0, o1, o2] P hs (ix3 p h w) = P (ix3 p ⟨h.val + o1, hb1⟩ ⟨w.val + o2, hb2⟩) :=
  extractStridedSlice_apply _ P hs _ _ (fun a => match a with
    | ⟨0, _⟩ => (Nat.zero_add _).symm
    | ⟨1, _⟩ => Nat.add_comm _ _
    | ⟨2, _⟩ => Nat.add_comm _ _)

/-- A window of 512 entries of the framed vectors at offset `o`. -/
theorem slice2_apply {α : Type} (o : ℕ) (sp : S8x514.Idx → α) (hs : S8x514.Slices ![0, o] S8x512)
    (p : Fin 8) (j : Fin 512) (hb : j.val + o < 514) :
    extractStridedSlice S8x512 ![0, o] sp hs (ix2 p j) = sp (ix2 p ⟨j.val + o, hb⟩) :=
  extractStridedSlice_apply _ sp hs _ _ (fun a => match a with
    | ⟨0, _⟩ => (Nat.zero_add _).symm
    | ⟨1, _⟩ => Nat.add_comm _ _)

/-! ## Sums along one axis -/

/-- The sum over the rows: one entry per plane and column. -/
theorem sumRows_apply (src : FVec Ideal S8x512x512 .f32) (hr : S8x512x512.Reduces [1] S8x512)
    (hφ : FKind.Formats .f32) (hacc : (0x00000000#32 : BitVec 32) = 0x00000000#32) (p : Fin 8) (w : Fin 512) :
    multiReduction .add [1] S8x512 src 0x00000000#32 hr hφ hacc (ix2 p w) = ∑ h : Fin 512, src (ix3 p h w) := by
  refine (Ideal.multiReduction_add_single src 0x00000000#32 hr hφ hacc (ix2 p w)).trans ?_
  exact Finset.sum_congr rfl fun k _ => congrArg src (funext fun d => Fin.ext (by
    match d with | ⟨0, _⟩ => rfl | ⟨1, _⟩ => rfl | ⟨2, _⟩ => rfl))

/-- The sum over the columns: one entry per plane and row. -/
theorem sumCols_apply (src : FVec Ideal S8x512x512 .f32) (hr : S8x512x512.Reduces [2] S8x512)
    (hφ : FKind.Formats .f32) (hacc : (0x00000000#32 : BitVec 32) = 0x00000000#32) (p : Fin 8) (h : Fin 512) :
    multiReduction .add [2] S8x512 src 0x00000000#32 hr hφ hacc (ix2 p h) = ∑ w : Fin 512, src (ix3 p h w) := by
  refine (Ideal.multiReduction_add_single src 0x00000000#32 hr hφ hacc (ix2 p h)).trans ?_
  exact Finset.sum_congr rfl fun k _ => congrArg src (funext fun d => Fin.ext (by
    match d with | ⟨0, _⟩ => rfl | ⟨1, _⟩ => rfl | ⟨2, _⟩ => rfl))

/-- The sum of a plane's 512 entries. -/
theorem sumVec_apply (src : FVec Ideal S8x512 .f32) (hr : S8x512.Reduces [1] S8)
    (hφ : FKind.Formats .f32) (hacc : (0x00000000#32 : BitVec 32) = 0x00000000#32) (p : Fin 8) :
    multiReduction .add [1] S8 src 0x00000000#32 hr hφ hacc (ix1 p) = ∑ j : Fin 512, src (ix2 p j) := by
  refine (Ideal.multiReduction_add_single src 0x00000000#32 hr hφ hacc (ix1 p)).trans ?_
  exact Finset.sum_congr rfl fun k _ => congrArg src (funext fun d => Fin.ext (by
    match d with | ⟨0, _⟩ => rfl | ⟨1, _⟩ => rfl))

end Cert.EdgeLoss.KVec

end
-- ==== Proof.KernelBlock.lean ====
/-
  One block of the kernel, read at an index: row `p` of the [8, 2] block the body stores holds, in column 0, the
  absolute difference of the two planes' edge structures across the rows, and in column 1 the same across the columns,
  where the two planes are plane `p` of the first and of the second loaded block.

  The steps: a block's gated planes inside their frame of zeros (`frame3_apply`); the gated absolute differences two
  rows (columns) apart, summed down each column (along each row) (`colsum_apply`, `rowsum_apply`); the 512 sums framed
  by a zero at each end (`padVec0_apply`); the absolute differences two apart summed and divided by four
  (`edge_apply`); and the two results set side by side (`pay1_apply0`, `pay1_apply1`).
-/
import proofs.«116852_j52544629900023_2_alg».proof.Proof.Gen.KernelIdeal.Frame
import proofs.«116852_j52544629900023_2_alg».proof.Proof.KernelVec

noncomputable section

namespace Cert.EdgeLoss.KBlock

open Idealize.ShloMosaic Idealize.ShloMosaic.ValueIdx Cert.KernelIdeal Cert.KernelIdeal.Gen Cert.EdgeLoss Cert.EdgeLoss.KVec

/-- Plane `p` of a block of eight planes. -/
def plane3 (x : S8x512x512.Idx → EReal) (p : Fin 8) : Fin 512 → Fin 512 → EReal := fun h w => x (ix3 p h w)

/-- The gate, entry by entry. -/
theorem gateV_apply (v : FVec Ideal S8x512x512 .f32) (i : S8x512x512.Idx) :
    logistic (mulf (subf v (broadcast S8x512x512 (Scalar.ofBits (F := Ideal) .f32 0x3F000000#32)))
      (broadcast S8x512x512 (Scalar.ofBits (F := Ideal) .f32 0x41200000#32))) i = gate (v i) := rfl

/-- Eight planes inside their frames of zeros: the rows framed first, then the columns. -/
theorem frame3_apply (v : FVec Ideal S8x512x512 .f32)
    (h1 : Shape.Concatenates [S8x1x512, S8x512x512] S8x513x512 1)
    (h2 : Shape.Concatenates [S8x513x512, S8x1x512] S8x514x512 1)
    (h3 : Shape.Concatenates [S8x514x1, S8x514x512] S8x514x513 2)
    (h4 : Shape.Concatenates [S8x514x513, S8x514x1] S8x514x514 2)
    (p : Fin 8) (a b : Fin 514) :
    concatenate S8x514x514 2
      [⟨S8x514x513, concatenate S8x514x513 2 [⟨S8x514x1, broadcast S8x514x1 (Scalar.sitofp (F := Ideal) .f32 0#32)⟩,
          ⟨S8x514x512, concatenate S8x514x512 1
            [⟨S8x513x512, concatenate S8x513x512 1 [⟨S8x1x512, broadcast S8x1x512 (Scalar.sitofp (F := Ideal) .f32 0#32)⟩,
                ⟨S8x512x512, v⟩] h1⟩,
             ⟨S8x1x512, broadcast S8x1x512 (Scalar.sitofp (F := Ideal) .f32 0#32)⟩] h2⟩] h3⟩,
       ⟨S8x514x1, broadcast S8x514x1 (Scalar.sitofp (F := Ideal) .f32 0#32)⟩] h4 (ix3 p a b)
      = frame (fun h w => v (ix3 p h w)) a.val b.val := by
  rw [padCols_apply]
  unfold frame
  by_cases hb : 1 ≤ b.val ∧ b.val ≤ 512
  · rw [dif_pos hb, dif_pos hb, padRows_apply]
    by_cases ha : 1 ≤ a.val ∧ a.val ≤ 512
    · rw [dif_pos ha, dif_pos ha]
    · rw [dif_neg ha, dif_neg ha]; exact sitofp_zero
  · rw [dif_neg hb, dif_neg hb]; exact sitofp_zero

/-- Column sums of the gated absolute differences two rows apart, over framed planes `Q`. -/
theorem colsum_apply (P : FVec Ideal S8x514x514 .f32)
    (hs2 : S8x514x514.Slices ![0, 2, 0] S8x512x512) (hs0 : S8x514x514.Slices ![0, 0, 0] S8x512x512)
    (hr : S8x512x512.Reduces [1] S8x512) (hφ : FKind.Formats .f32) (hacc : (0x00000000#32 : BitVec 32) = 0x00000000#32)
    (p : Fin 8) (w : Fin 512) (Q : ℕ → ℕ → EReal) (hP : ∀ a b : Fin 514, P (ix3 p a b) = Q a.val b.val) :
    multiReduction .add [1] S8x512
      (logistic (mulf (subf (absf (subf (extractStridedSlice S8x512x512 ![0, 2, 0] P hs2)
          (extractStridedSlice S8x512x512 ![0, 0, 0] P hs0)))
        (broadcast S8x512x512 (Scalar.ofBits (F := Ideal) .f32 0x3F000000#32)))
        (broadcast S8x512x512 (Scalar.ofBits (F := Ideal) .f32 0x41200000#32))))
      0x00000000#32 hr hφ hacc (ix2 p w) = colGate Q w := by
  refine (sumRows_apply _ hr hφ hacc p w).trans ?_
  unfold colGate
  refine Finset.sum_congr rfl fun h _ => ?_
  show gate (absE (extractStridedSlice S8x512x512 ![0, 2, 0] P hs2 (ix3 p h w)
    - extractStridedSlice S8x512x512 ![0, 0, 0] P hs0 (ix3 p h w))) = _
  rw [slice3_apply 2 0 P hs2 p h w (by omega) (by omega), slice3_apply 0 0 P hs0 p h w (by omega) (by omega), hP, hP]
  rfl

/-- Row sums of the gated absolute differences two columns apart, over framed planes `Q`. -/
theorem rowsum_apply (P : FVec Ideal S8x514x514 .f32)
    (hs2 : S8x514x514.Slices ![0, 0, 2] S8x512x512) (hs0 : S8x514x514.Slices ![0, 0, 0] S8x512x512)
    (hr : S8x512x512.Reduces [2] S8x512) (hφ : FKind.Formats .f32) (hacc : (0x00000000#32 : BitVec 32) = 0x00000000#32)
    (p : Fin 8) (h : Fin 512) (Q : ℕ → ℕ → EReal) (hP : ∀ a b : Fin 514, P (ix3 p a b) = Q a.val b.val) :
    multiReduction .add [2] S8x512
      (logistic (mulf (subf (absf (subf (extractStridedSlice S8x512x512 ![0, 0, 2] P hs2)
          (extractStridedSlice S8x512x512 ![0, 0, 0] P hs0)))
        (broadcast S8x512x512 (Scalar.ofBits (F := Ideal) .f32 0x3F000000#32)))
        (broadcast S8x512x512 (Scalar.ofBits (F := Ideal) .f32 0x41200000#32))))
      0x00000000#32 hr hφ hacc (ix2 p h) = rowGate Q h := by
  refine (sumCols_apply _ hr hφ hacc p h).trans ?_
  unfold rowGate
  refine Finset.sum_congr rfl fun w _ => ?_
  show gate (absE (extractStridedSlice S8x512x512 ![0, 0, 2] P hs2 (ix3 p h w)
    - extractStridedSlice S8x512x512 ![0, 0, 0] P hs0 (ix3 p h w))) = _
  rw [slice3_apply 0 2 P hs2 p h w (by omega) (by omega), slice3_apply 0 0 P hs0 p h w (by omega) (by omega), hP, hP]
  rfl

/-- The 512 sums `S` of plane `p` with a zero before and after. -/
theorem padVec0_apply (s : FVec Ideal S8x512 .f32)
    (h5 : Shape.Concatenates [S8x1, S8x512] S8x513 1) (h6 : Shape.Concatenates [S8x513, S8x1] S8x514 1)
    (p : Fin 8) (j : Fin 514) (S : Fin 512 → EReal) (hs : ∀ k : Fin 512, s (ix2 p k) = S k) :
    concatenate S8x514 1
        [⟨S8x513, concatenate S8x513 1 [⟨S8x1, broadcast S8x1 (Scalar.sitofp (F := Ideal) .f32 0#32)⟩, ⟨S8x512, s⟩] h5⟩,
         ⟨S8x1, broadcast S8x1 (Scalar.sitofp (F := Ideal) .f32 0#32)⟩] h6 (ix2 p j)
      = frameRow S j.val := by
  rw [padVec_apply]
  unfold frameRow
  by_cases hj : 1 ≤ j.val ∧ j.val ≤ 512
  · rw [dif_pos hj, dif_pos hj, hs]
  · rw [dif_neg hj, dif_neg hj]; exact sitofp_zero

/-- The absolute differences two apart of a framed vector, summed and divided by four. -/
theorem edge_apply (sp : FVec Ideal S8x514 .f32)
    (hs2 : S8x514.Slices ![0, 2] S8x512) (hs0 : S8x514.Slices ![0, 0] S8x512)
    (hr : S8x512.Reduces [1] S8) (hφ : FKind.Formats .f32) (hacc : (0x00000000#32 : BitVec 32) = 0x00000000#32)
    (p : Fin 8) (S : Fin 512 → EReal) (hsp : ∀ j : Fin 514, sp (ix2 p j) = frameRow S j.val) :
    divf (multiReduction .add [1] S8
        (absf (subf (extractStridedSlice S8x512 ![0, 2] sp hs2) (extractStridedSlice S8x512 ![0, 0] sp hs0)))
        0x00000000#32 hr hφ hacc)
      (broadcast S8 (Scalar.ofBits (F := Ideal) .f32 0x40800000#32)) (ix1 p) = edge S := by
  show Ideal.div (multiReduction .add [1] S8
        (absf (subf (extractStridedSlice S8x512 ![0, 2] sp hs2) (extractStridedSlice S8x512 ![0, 0] sp hs0)))
        0x00000000#32 hr hφ hacc (ix1 p)) (Ideal.ofBits .f32 0x40800000#32) = _
  rw [sumVec_apply]
  unfold edge
  refine congrArg (fun e => Ideal.div e (Ideal.ofBits .f32 0x40800000#32)) ?_
  refine Finset.sum_congr rfl fun j _ => ?_
  show absE (extractStridedSlice S8x512 ![0, 2] sp hs2 (ix2 p j) - extractStridedSlice S8x512 ![0, 0] sp hs0 (ix2 p j)) = _
  rw [slice2_apply 2 sp hs2 p j (by omega), slice2_apply 0 sp hs0 p j (by omega), hsp, hsp]
  rfl

/-- A vector of eight entries cast to a column reads, at row `p`, entry `p`. -/
theorem shapeCast_col_apply {α : Type} (x : S8.Idx → α) (h : S8.ShapeCasts S8x1) (p : Fin 8) :
    shapeCast S8x1 x h (ix2 p (0 : Fin 1)) = x (ix1 p) :=
  shapeCast_apply x h _ _ (by
    rw [Shape.rowMajor_val_two, Shape.rowMajor_val_one]
    show p.val = p.val * 1 + 0
    omega)

/-! ## The body's named values -/

/-- The first block's gated planes inside their frames. -/
theorem pay3_apply (v0 : Vec Ideal S8x512x512 .f32) (p : Fin 8) (a b : Fin 514) :
    k0_pay3 (F := Ideal) v0 (ix3 p a b) = frame (fun h w => gate (plane3 v0 p h w)) a.val b.val := by
  unfold k0_pay3
  refine (frame3_apply _ _ _ _ _ p a b).trans ?_
  refine congrArg (fun q => frame q a.val b.val) (funext fun h => funext fun w => ?_)
  show gate (shapeCast S8x512x512 v0 _ (ix3 p h w)) = _
  rw [shapeCast_self]
  rfl

/-- The second block's gated planes. -/
theorem pay2_apply (v2 : Vec Ideal S8x512x512 .f32) (p : Fin 8) (h w : Fin 512) :
    k0_pay2 (F := Ideal) v2 (ix3 p h w) = gate (plane3 v2 p h w) := by
  unfold k0_pay2
  show gate (shapeCast S8x512x512 v2 _ (ix3 p h w)) = _
  rw [shapeCast_self]
  rfl

/-- Gated planes inside their frames. -/
theorem pay7_apply (v13 : FVec Ideal S8x512x512 .f32) (p : Fin 8) (a b : Fin 514) :
    k0_pay7 (F := Ideal) v13 (ix3 p a b) = frame (fun h w => v13 (ix3 p h w)) a.val b.val := by
  unfold k0_pay7
  exact frame3_apply _ _ _ _ _ p a b

/-- The edge structure across the rows of plane `p` of the first block. -/
theorem structX_first (v0 : Vec Ideal S8x512x512 .f32) (p : Fin 8) :
    k0_pay5 (F := Ideal) (k0_pay4 v0) (ix1 p) = structX (plane3 v0 p) := by
  unfold k0_pay5 k0_pay4 structX
  exact edge_apply _ _ _ _ _ _ p _ fun j => padVec0_apply _ _ _ p j _ fun k =>
    colsum_apply _ _ _ _ _ _ p k _ fun a b => pay3_apply v0 p a b

/-- The edge structure across the columns of plane `p` of the first block. -/
theorem structY_first (v0 : Vec Ideal S8x512x512 .f32) (p : Fin 8) :
    k0_pay6 (F := Ideal) (k0_pay3 v0) (ix1 p) = structY (plane3 v0 p) := by
  unfold k0_pay6 structY
  exact edge_apply _ _ _ _ _ _ p _ fun j => padVec0_apply _ _ _ p j _ fun k =>
    rowsum_apply _ _ _ _ _ _ p k _ fun a b => pay3_apply v0 p a b

/-- The framed column sums of the second block's planes. -/
theorem pay8_apply (v13 : FVec Ideal S8x512x512 .f32) (p : Fin 8) (j : Fin 514) :
    k0_pay8 (F := Ideal) v13 (ix2 p j) = frameRow (colGate (frame fun h w => v13 (ix3 p h w))) j.val := by
  unfold k0_pay8
  exact padVec0_apply _ _ _ p j _ fun k => colsum_apply _ _ _ _ _ _ p k _ fun a b => pay7_apply v13 p a b

/-- Column 0 of the stored block: the absolute difference of the two structures across the rows. -/
theorem pay1_apply0 (v44 v66 : FVec Ideal S8 .f32) (v75 : FVec Ideal S8x514x514 .f32) (v90 : FVec Ideal S8x514 .f32)
    (p : Fin 8) (S : Fin 512 → EReal) (hv90 : ∀ j : Fin 514, v90 (ix2 p j) = frameRow S j.val) :
    k0_pay1 (F := Ideal) v44 v66 v75 v90 (ix2 p (0 : Fin 2)) = absE (v44 (ix1 p) - edge S) := by
  unfold k0_pay1
  refine (concatenate_pair_apply_left (t := S8x2) (s₁ := S8x1) (s₂ := S8x1) 1 _ _ _ (ix2 p (0 : Fin 2)) rfl (ix2 p (0 : Fin 1))
    (by intro d; fin_cases d <;> rfl)).trans ?_
  refine (shapeCast_col_apply _ _ p).trans ?_
  refine congrArg (fun e => absE (v44 (ix1 p) - e)) ?_
  exact edge_apply v90 _ _ _ _ _ p S hv90

/-- Column 1 of the stored block: the absolute difference of the two structures across the columns. -/
theorem pay1_apply1 (v44 v66 : FVec Ideal S8 .f32) (v75 : FVec Ideal S8x514x514 .f32) (v90 : FVec Ideal S8x514 .f32)
    (p : Fin 8) (Q : ℕ → ℕ → EReal) (hv75 : ∀ a b : Fin 514, v75 (ix3 p a b) = Q a.val b.val) :
    k0_pay1 (F := Ideal) v44 v66 v75 v90 (ix2 p (1 : Fin 2)) = absE (v66 (ix1 p) - edge (rowGate Q)) := by
  unfold k0_pay1
  refine (concatenate_pair_apply_right (t := S8x2) (s₁ := S8x1) (s₂ := S8x1) 1 _ _ _ (ix2 p (1 : Fin 2)) rfl rfl (ix2 p (0 : Fin 1))
    (by intro d hd; fin_cases d <;> first | rfl | exact absurd rfl hd) (by rfl)).trans ?_
  refine (shapeCast_col_apply _ _ p).trans ?_
  refine congrArg (fun e => absE (v66 (ix1 p) - e)) ?_
  exact edge_apply _ _ _ _ _ _ p _ fun j => padVec0_apply _ _ _ p j _ fun k =>
    rowsum_apply v75 _ _ _ _ _ p k Q hv75

/-! ## The stored block -/

theorem hz2 : (![0, 0] : Fin 2 → Nat) = fun _ => 0 := funext fun a => by fin_cases a <;> rfl
theorem hz3 : (![0, 0, 0] : Fin 3 → Nat) = fun _ => 0 := funext fun a => by fin_cases a <;> rfl

/-- The block the body leaves is its one stored value, of the two loaded blocks whole. -/
theorem out_eq (x0 x1 : Vec Ideal S8x512x512 .f32) :
    out0_2 (F := Ideal) x0 x1
      = k0_pay1 (k0_pay5 (k0_pay4 x0)) (k0_pay6 (k0_pay3 x0)) (k0_pay7 (k0_pay2 x1)) (k0_pay8 (k0_pay2 x1)) := by
  unfold out0_2
  rw [View.canon_unit_zero hz2]
  simp only [View.ld_unit_zero (S := S8x512x512) hz3]

/-- The second block's gated planes, framed, are the frames of its planes' gates. -/
theorem pay7_pay2_apply (x1 : Vec Ideal S8x512x512 .f32) (p : Fin 8) (a b : Fin 514) :
    k0_pay7 (F := Ideal) (k0_pay2 x1) (ix3 p a b) = frame (fun h w => gate (plane3 x1 p h w)) a.val b.val := by
  rw [pay7_apply]
  exact congrArg (fun q => frame q a.val b.val) (funext fun h => funext fun w => pay2_apply x1 p h w)

theorem pay8_pay2_apply (x1 : Vec Ideal S8x512x512 .f32) (p : Fin 8) (j : Fin 514) :
    k0_pay8 (F := Ideal) (k0_pay2 x1) (ix2 p j) = frameRow (colGate (frame fun h w => gate (plane3 x1 p h w))) j.val := by
  rw [pay8_apply]
  exact congrArg (fun q => frameRow (colGate (frame q)) j.val) (funext fun h => funext fun w => pay2_apply x1 p h w)

/-- Row `p`, column 0 of the stored block. -/
theorem out_apply0 (x0 x1 : Vec Ideal S8x512x512 .f32) (p : Fin 8) :
    out0_2 (F := Ideal) x0 x1 (ix2 p (0 : Fin 2)) = absE (structX (plane3 x0 p) - structX (plane3 x1 p)) := by
  rw [out_eq, pay1_apply0 _ _ _ _ p _ (pay8_pay2_apply x1 p), structX_first]
  rfl

/-- Row `p`, column 1 of the stored block. -/
theorem out_apply1 (x0 x1 : Vec Ideal S8x512x512 .f32) (p : Fin 8) :
    out0_2 (F := Ideal) x0 x1 (ix2 p (1 : Fin 2)) = absE (structY (plane3 x0 p) - structY (plane3 x1 p)) := by
  rw [out_eq, pay1_apply1 _ _ _ _ p _ (pay7_pay2_apply x1 p), structY_first]
  rfl

end Cert.EdgeLoss.KBlock

end
-- ==== Proof.KernelArray.lean ====
/-
  From blocks to the array the region leaves. Point `t` of the eight-point grid loads planes `8t … 8t + 7` of each of the
  two [64, 512, 512] arrays and writes rows `8t … 8t + 7` of the [64, 2] result, so row `n` of the result holds the two
  absolute differences of the edge structures of plane `n` of the one array and plane `n` of the other (`pairs`); the
  eight blocks of eight rows fill the 64 rows (`cover`), so the whole result array is `pairs` (`final`).
-/
import proofs.«116852_j52544629900023_2_alg».proof.Proof.Gen.KernelIdeal.Frame
import proofs.«116852_j52544629900023_2_alg».proof.Proof.KernelBlock
import Idealize.ShloMosaic.Lib.Pipeline.Value

noncomputable section

namespace Cert.EdgeLoss.KArray

open Idealize.ShloMosaic Idealize.ShloMosaic.TcCoe Idealize.SL.Sem Idealize.ShloMosaic.ValueIdx
open Cert.KernelIdeal Cert.KernelIdeal.Gen Cert.EdgeLoss Cert.EdgeLoss.KBlock
open Idealize.ShloMosaic.Pipeline (Dat)

variable (m : (ℓ : Loc nD τ sig) → Buf (Elt Ideal) ℓ) (ρ : Dev nD → PrngReg)

/-- Plane `n` of an array of 64 planes. -/
def plane64 (A : S64x512x512.Idx → EReal) (n : Fin 64) : Fin 512 → Fin 512 → EReal := fun h w => A (ix3 n h w)

/-- Row `n` of the result: across the rows in column 0, across the columns in column 1. -/
def pairs (A0 A1 : S64x512x512.Idx → EReal) : S64x2.Idx → EReal := fun i =>
  if (i 1).val = 0 then absE (structX (plane64 A0 ⟨(i 0).val, (i 0).isLt⟩) - structX (plane64 A1 ⟨(i 0).val, (i 0).isLt⟩))
  else absE (structY (plane64 A0 ⟨(i 0).val, (i 0).isLt⟩) - structY (plane64 A1 ⟨(i 0).val, (i 0).isLt⟩))

/-- The block index maps over the grid: point `t` takes block `t` along the planes (rows of the result) and block 0
    along every other axis. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- One block row, in terms of the whole arrays: when the two loaded blocks are planes `8n … 8n + 7` of `A0` and `A1`,
    row `p` of the stored block is row `8n + p` of `pairs`. -/
theorem block_pairs (A0 A1 : S64x512x512.Idx → EReal) (x0 x1 : Vec Ideal S8x512x512 .f32) (n : ℕ) (hn : n < 8)
    (hx0 : ∀ (p : Fin 8) (h w : Fin 512), x0 (ix3 p h w) = A0 (ix3 ⟨n * 8 + p.val, by omega⟩ h w))
    (hx1 : ∀ (p : Fin 8) (h w : Fin 512), x1 (ix3 p h w) = A1 (ix3 ⟨n * 8 + p.val, by omega⟩ h w))
    (p : Fin 8) (q : Fin 2) :
    out0_2 (F := Ideal) x0 x1 (ix2 p q) = pairs A0 A1 (ix2 ⟨n * 8 + p.val, by omega⟩ q) := by
  have e0 : plane3 x0 p = plane64 A0 ⟨n * 8 + p.val, by omega⟩ := funext fun h => funext fun w => hx0 p h w
  have e1 : plane3 x1 p = plane64 A1 ⟨n * 8 + p.val, by omega⟩ := funext fun h => funext fun w => hx1 p h w
  revert q
  refine Fin.forall_fin_two.2 ⟨?_, ?_⟩
  · rw [out_apply0, e0, e1]; rfl
  · rw [out_apply1, e0, e1]; rfl

/-- What point `t` writes back is block `t` of `pairs` of the two arrays as the region finds them. -/
theorem flushed_eq (c : Dev nD) (t : Fin cfg0.N) :
    (dats m 0 c).flushed 2 t
      = ((cfg0.win 2).blk t).view.read (Elt Ideal) (pairs (V m c main_v0) (V m c main_v1)) := by
  show (cfg0.win 2).cut (grid0.coords t) ((dats m 0 c).after 2 t) = _
  rw [after0_2]
  obtain ⟨e00, e01, e02, e10, e11, e12, e20, e21⟩ := idx_facts t
  have ht : t.val < 8 := by have h1 := t.isLt; have h2 : cfg0.N = 8 := N_0; omega
  have hx0 : ∀ (p : Fin 8) (h w : Fin 512),
      (iblk m c 0 t : Vec Ideal S8x512x512 .f32) (ix3 p h w) = V m c main_v0 (ix3 ⟨t.val * 8 + p.val, by omega⟩ h w) := by
    intro p h w
    unfold iblk
    rw [View.read_apply]
    show V m c main_v0 _ = V m c main_v0 _
    congr 1
    funext a
    apply Fin.ext
    match a with
    | ⟨0, _⟩ => show win0_0.index t (0 : Fin 3) * 8 + 1 * p.val = t.val * 8 + p.val; rw [e00]; omega
    | ⟨1, _⟩ => show win0_0.index t (1 : Fin 3) * 512 + 1 * h.val = h.val; rw [e01]; omega
    | ⟨2, _⟩ => show win0_0.index t (2 : Fin 3) * 512 + 1 * w.val = w.val; rw [e02]; omega
  have hx1 : ∀ (p : Fin 8) (h w : Fin 512),
      (iblk m c 1 t : Vec Ideal S8x512x512 .f32) (ix3 p h w) = V m c main_v1 (ix3 ⟨t.val * 8 + p.val, by omega⟩ h w) := by
    intro p h w
    unfold iblk
    rw [View.read_apply]
    show V m c main_v1 _ = V m c main_v1 _
    congr 1
    funext a
    apply Fin.ext
    match a with
    | ⟨0, _⟩ => show win0_1.index t (0 : Fin 3) * 8 + 1 * p.val = t.val * 8 + p.val; rw [e10]; omega
    | ⟨1, _⟩ => show win0_1.index t (1 : Fin 3) * 512 + 1 * h.val = h.val; rw [e11]; omega
    | ⟨2, _⟩ => show win0_1.index t (2 : Fin 3) * 512 + 1 * w.val = w.val; rw [e12]; omega
  funext j
  have key := block_pairs (V m c main_v0) (V m c main_v1) (iblk m c 0 t) (iblk m c 1 t) t.val ht hx0 hx1 (j 0) (j 1)
  refine ((congrArg (out0_2 (F := Ideal) (iblk m c 0 t) (iblk m c 1 t)) (eq_ix2 j)).trans key).trans
    (congrArg (pairs (V m c main_v0) (V m c main_v1)) ?_)
  funext a
  apply Fin.ext
  match a with
  | ⟨0, _⟩ => show t.val * 8 + (j 0).val = win0_2.index t (0 : Fin 2) * 8 + 1 * (j 0).val; rw [e20]; omega
  | ⟨1, _⟩ => show (j 1).val = win0_2.index t (1 : Fin 2) * 2 + 1 * (j 1).val; rw [e21]; omega

/-- An index of the result is in point `t`'s block iff each coordinate is in the block's range on its axis. -/
theorem mem_blk (t : Fin cfg0.N) (i : S64x2.Idx) :
    i ∈ ((cfg0.win 2).blk t).view.set
      ↔ ∀ a : Fin 2, win0_2.index t a * S8x2.size a ≤ (i a).val ∧ (i a).val < win0_2.index t a * S8x2.size a + S8x2.size a := by
  show i ∈ ((View.whole main_v2).slice (win0_2.rect t)).set ↔ _
  rw [View.set_slice_whole, Rect.mem_set_unit]
  exact Iff.rfl

/-- Row `r` of the result is written by point `r / 8`. -/
theorem cover (i : S64x2.Idx) : ∃ t : Fin cfg0.N, (cfg0.win 2).flush t = true ∧ i ∈ ((cfg0.win 2).blk t).view.set := by
  have hi0 : (i 0).val < 64 := (i 0).isLt
  have hi1 : (i 1).val < 2 := (i 1).isLt
  have hN : cfg0.N = 8 := N_0
  refine ⟨⟨(i 0).val / 8, by omega⟩, flush0_2 _, ?_⟩
  rw [mem_blk]
  obtain ⟨-, -, -, -, -, -, e20, e21⟩ := idx_facts ⟨(i 0).val / 8, by omega⟩
  intro a
  match a with
  | ⟨0, _⟩ =>
    show win0_2.index _ (0 : Fin 2) * 8 ≤ (i 0).val ∧ (i 0).val < win0_2.index _ (0 : Fin 2) * 8 + 8
    rw [e20]
    show (i 0).val / 8 * 8 ≤ (i 0).val ∧ (i 0).val < (i 0).val / 8 * 8 + 8
    omega
  | ⟨1, _⟩ =>
    show win0_2.index _ (1 : Fin 2) * 2 ≤ (i 1).val ∧ (i 1).val < win0_2.index _ (1 : Fin 2) * 2 + 2
    rw [e21]
    omega

/-- The result array after the region. -/
theorem final (c : Dev nD) : (dats m 0 c).arrAt 2 cfg0.N = pairs (V m c main_v0) (V m c main_v1) :=
  (dats m 0 c).arrAt_eq_of_cover 2 (pairs (V m c main_v0) (V m c main_v1)) (fun t _ => flushed_eq m c t) fun i => cover i

end Cert.EdgeLoss.KArray

end
-- ==== Proof.KernelTail.lean ====
/-
  After the region: the host takes the result's two columns as [16, 4] arrays, adds them, multiplies by the absolute
  value of the weight of the channel, halves, sums over the 64 (batch, channel) pairs and divides by 64 (`tail`).
  Row `4 b + c` of the [64, 2] result is pair `(b, c)`, and plane `4 b + c` of a [16, 4, 512, 512] array recast as
  [64, 512, 512] is its plane `(b, c)`.
-/
import proofs.«116852_j52544629900023_2_alg».proof.Proof.KernelArray
import Idealize.ShloMosaic.Lib.StableHlo.Run
import Idealize.ShloMosaic.Lib.IdealHost

noncomputable section

namespace Cert.EdgeLoss.KTail

open Idealize.ShloMosaic Idealize.ShloMosaic.TcCoe Idealize.SL.Sem Idealize.ShloMosaic.ValueIdx Idealize.ShloMosaic.StableHlo
open Cert.KernelIdeal Cert.KernelIdeal.Gen Cert.EdgeLoss Cert.EdgeLoss.KBlock Cert.EdgeLoss.KArray

variable (m : (ℓ : Loc nD τ sig) → Buf (Elt Ideal) ℓ) (ρ : Dev nD → PrngReg)

/-- The host operations after the region, as one function of the region's result and the weight. -/
def tail (R : S64x2.Idx → EReal) (w : S1x4.Idx → EReal) : S_.Idx → EReal :=
  Host.divf (F := Ideal)
    (Host.reduceAdd (F := Ideal)
      (Host.divf (F := Ideal)
        (mulf (broadcastInDim S16x4 ![0, 1] Gen.bcast_S1x4_S16x4_0_1 (Host.absf (F := Ideal) (φ := .f32) w))
          (addf
            (shapeCast S16x4 (shapeCast S64 (extractStridedSlice S64x1 ![0, 0] R Gen.slices_S64x2_S64x1_0_0)
              Gen.shapeCasts_S64x1_S64) Gen.shapeCasts_S64_S16x4)
            (shapeCast S16x4 (shapeCast S64 (extractStridedSlice S64x1 ![0, 1] R Gen.slices_S64x2_S64x1_0_1)
              Gen.shapeCasts_S64x1_S64) Gen.shapeCasts_S64_S16x4)))
        (broadcastInDim S16x4 ![] Gen.bcast_S_S16x4 (constant (F := Ideal) S_ .f32 0x40000000#32)))
      (constant (F := Ideal) S_ .f32 0x00000000#32) Gen.reducesTo_S16x4_S_d0_1 Gen.h_S_)
    (constant (F := Ideal) S_ .f32 0x42800000#32)

/-- What the operations after the region leave in the result buffer, from any contents of the buffers they read. -/
theorem after_tail (Vv : Valuation τ sig (Elt Ideal)) :
    StableHlo.after (hostOps1 (F := Ideal)) Vv (Proc.devRef .tc main_v16)
      = tail (Vv (Proc.devRef .tc main_v2)) (Vv (Proc.devRef .tc main_arg2)) := by
  after_results
  rfl

/-- The result buffer after the whole program: the tail of the region's result array and of the weight as launched. -/
theorem result_eq (c : Dev nD) :
    Pipeline.afterTail₀ cfgs (dats m) 0 (V0 m) [hostOps1] c main_v16
      = tail (pairs (V m c main_v0) (V m c main_v1)) (m ((c : Thread nD τ).loc main_arg2)) := by
  unfold Pipeline.afterTail₀
  show StableHlo.after hostOps1 _ (Proc.devRef .tc main_v16) = _
  refine (after_tail _).trans ?_
  have hR : (Pipeline.withArrays (cfgs 0).spec c (V0 m c) fun w => (dats m 0 c).arrAt w (cfgs 0).N) (Proc.devRef .tc main_v2)
      = pairs (V m c main_v0) (V m c main_v1) :=
    (Pipeline.withArrays_arr spec0 launch0.win.arr_inj c _ _ 2).trans (final m c)
  have hW : (Pipeline.withArrays (cfgs 0).spec c (V0 m c) fun w => (dats m 0 c).arrAt w (cfgs 0).N) (Proc.devRef .tc main_arg2)
      = m ((c : Thread nD τ).loc main_arg2) :=
    (Pipeline.withArrays_of_ne _ c (V0 m c) _ main_arg2 (by decide)).trans (V_main_arg2 m c)
  rw [hR, hW]

/-- The two arrays the region reads are the two arguments recast as 64 planes. -/
theorem V_v0 (c : Dev nD) : (V m c main_v0 : S64x512x512.Idx → EReal)
    = shapeCast S64x512x512 (m ((c : Thread nD τ).loc main_arg0)) Gen.shapeCasts_S16x4x512x512_S64x512x512 := by
  show StableHlo.after hostOps0 (fun b => m (c, b)) (Proc.devRef .tc main_v0) = _
  after_results
  rfl

theorem V_v1 (c : Dev nD) : (V m c main_v1 : S64x512x512.Idx → EReal)
    = shapeCast S64x512x512 (m ((c : Thread nD τ).loc main_arg1)) Gen.shapeCasts_S16x4x512x512_S64x512x512 := by
  show StableHlo.after hostOps0 (fun b => m (c, b)) (Proc.devRef .tc main_v1) = _
  after_results
  rfl

/-- Plane `4 b + c` of the recast array is plane `(b, c)` of the argument. -/
theorem plane64_cast (x : S16x4x512x512.Idx → EReal) (hc : S16x4x512x512.ShapeCasts S64x512x512) (b : Fin 16) (c : Fin 4) :
    plane64 (shapeCast S64x512x512 x hc) ⟨b.val * 4 + c.val, by omega⟩ = fun h w => x (ix4 b c h w) := by
  funext h w
  unfold plane64
  exact shapeCast_apply x hc _ _ (by
    rw [Shape.rowMajor_val_four, Shape.rowMajor_val_three]
    rfl)

/-- One column of the region's result, recast to [16, 4], at pair `(b, c)`: row `4 b + c` of that column. -/
theorem col_apply (R : S64x2.Idx → EReal) (o : ℕ) (ho : o < 2) (hs : S64x2.Slices ![0, o] S64x1)
    (h1 : S64x1.ShapeCasts S64) (h2 : S64.ShapeCasts S16x4) (b : Fin 16) (c : Fin 4) :
    shapeCast S16x4 (shapeCast S64 (extractStridedSlice S64x1 ![0, o] R hs) h1) h2 (ix2 b c)
      = R (ix2 ⟨b.val * 4 + c.val, by omega⟩ ⟨o, ho⟩) := by
  rw [shapeCast_apply _ h2 (ix2 b c) (ix1 (⟨b.val * 4 + c.val, by omega⟩ : Fin 64)) (by
    rw [Shape.rowMajor_val_one, Shape.rowMajor_val_two]; rfl)]
  rw [shapeCast_apply _ h1 (ix1 (⟨b.val * 4 + c.val, by omega⟩ : Fin 64)) (ix2 (⟨b.val * 4 + c.val, by omega⟩ : Fin 64) (0 : Fin 1)) (by
    rw [Shape.rowMajor_val_two, Shape.rowMajor_val_one]; show (b.val * 4 + c.val) * 1 + 0 = b.val * 4 + c.val; omega)]
  exact extractStridedSlice_apply _ R hs _ _ (fun a => match a with
    | ⟨0, _⟩ => (Nat.zero_add _).symm
    | ⟨1, _⟩ => rfl)

/-- The tail at its one index: the sum over the 64 pairs of the weighted, halved sum of the result's two columns, over 64. -/
theorem tail_apply (R : S64x2.Idx → EReal) (w : S1x4.Idx → EReal) (i : S_.Idx) :
    tail R w i = Ideal.div (Ideal.ofBits .f32 0x00000000#32
        + ∑ j : S16x4.Idx, Ideal.div (absE (w (ix2 (0 : Fin 1) (j 1)))
            * (R (ix2 ⟨(j 0).val * 4 + (j 1).val, by have h0 : (j 0).val < 16 := (j 0).isLt; have h1 : (j 1).val < 4 := (j 1).isLt; omega⟩ (0 : Fin 2))
              + R (ix2 ⟨(j 0).val * 4 + (j 1).val, by have h0 : (j 0).val < 16 := (j 0).isLt; have h1 : (j 1).val < 4 := (j 1).isLt; omega⟩ (1 : Fin 2))))
          (Ideal.ofBits .f32 0x40000000#32))
      (Ideal.ofBits .f32 0x42800000#32) := by
  unfold tail
  show Ideal.div (Ideal.hostReduceAdd Gen.reducesTo_S16x4_S_d0_1 _ (Ideal.ofBits .f32 0x00000000#32) i) (Ideal.ofBits .f32 0x42800000#32) = _
  rw [Ideal.hostReduceAdd_total Gen.reducesTo_S16x4_S_d0_1 (fun b => b.elim0) _ _ i]
  refine congrArg (fun e => Ideal.div (Ideal.ofBits .f32 0x00000000#32 + e) (Ideal.ofBits .f32 0x42800000#32)) ?_
  refine Finset.sum_congr rfl fun j _ => ?_
  obtain ⟨b, c, rfl⟩ : ∃ (b : Fin 16) (c : Fin 4), j = ix2 b c := ⟨j 0, j 1, eq_ix2 j⟩
  show Ideal.div (broadcastInDim S16x4 ![0, 1] Gen.bcast_S1x4_S16x4_0_1 (Host.absf (F := Ideal) (φ := .f32) w) (ix2 b c)
      * (shapeCast S16x4 (shapeCast S64 (extractStridedSlice S64x1 ![0, 0] R Gen.slices_S64x2_S64x1_0_0)
            Gen.shapeCasts_S64x1_S64) Gen.shapeCasts_S64_S16x4 (ix2 b c)
        + shapeCast S16x4 (shapeCast S64 (extractStridedSlice S64x1 ![0, 1] R Gen.slices_S64x2_S64x1_0_1)
            Gen.shapeCasts_S64x1_S64) Gen.shapeCasts_S64_S16x4 (ix2 b c)))
      (broadcastInDim S16x4 ![] Gen.bcast_S_S16x4 (constant (F := Ideal) S_ .f32 0x40000000#32) (ix2 b c)) = _
  rw [col_apply R 0 (by omega), col_apply R 1 (by omega), broadcastInDim_scalar_apply,
    broadcastInDim_apply _ Gen.bcast_S1x4_S16x4_0_1 _ (ix2 b c) (ix2 (0 : Fin 1) c) (fun a => match a with
      | ⟨0, _⟩ => by show 0 = if (1 : Nat) = 1 then 0 else b.val; rw [if_pos rfl]
      | ⟨1, _⟩ => by show c.val = if (4 : Nat) = 1 then 0 else c.val; rw [if_neg (by decide)])]
  rfl

/-! ## The kernel's result as one function of the three arguments -/

/-- The loss the kernel program returns, of the argument arrays. -/
def lossK (a0 a1 : S16x4x512x512.Idx → EReal) (a2 : S1x4.Idx → EReal) : S_.Idx → EReal :=
  tail (pairs (shapeCast S64x512x512 a0 Gen.shapeCasts_S16x4x512x512_S64x512x512)
    (shapeCast S64x512x512 a1 Gen.shapeCasts_S16x4x512x512_S64x512x512)) a2

/-- Every weakly fair execution of the kernel program terminates with the result at `lossK` of the arguments and
    the arguments unchanged. -/
theorem run : θ_run defs (onTc (τ := τ) (main (F := Ideal))) ⟨m, fun _ => 0, ρ⟩ fun r => ∀ c : Dev nD,
      r.2.mem ((c.tc : Thread nD τ).loc main_v16)
        = lossK (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v16 (Pipeline.mem_restRefs_of main_v16 (by decide) (by decide))).trans
        ((result_eq m c).trans (by rw [V_v0, V_v1]; rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-- `lossK` at its one index: over the 64 pairs, the absolute weight times the sum of the two absolute differences of
    the planes' structures, halved; summed; over 64. -/
theorem lossK_apply (a0 a1 : S16x4x512x512.Idx → EReal) (a2 : S1x4.Idx → EReal) (i : S_.Idx) :
    lossK a0 a1 a2 i = Ideal.div (Ideal.ofBits .f32 0x00000000#32
        + ∑ j : S16x4.Idx, Ideal.div (absE (a2 (ix2 (0 : Fin 1) (j 1)))
            * (absE (structX (fun h w => a0 (ix4 (j 0) (j 1) h w)) - structX (fun h w => a1 (ix4 (j 0) (j 1) h w)))
              + absE (structY (fun h w => a0 (ix4 (j 0) (j 1) h w)) - structY (fun h w => a1 (ix4 (j 0) (j 1) h w)))))
          (Ideal.ofBits .f32 0x40000000#32))
      (Ideal.ofBits .f32 0x42800000#32) := by
  unfold lossK
  rw [tail_apply]
  refine congrArg (fun e => Ideal.div (Ideal.ofBits .f32 0x00000000#32 + e) (Ideal.ofBits .f32 0x42800000#32)) ?_
  refine Finset.sum_congr rfl fun j _ => ?_
  have h0 : (j 0).val < 16 := (j 0).isLt
  have h1 : (j 1).val < 4 := (j 1).isLt
  have p0 := plane64_cast a0 Gen.shapeCasts_S16x4x512x512_S64x512x512 ⟨(j 0).val, h0⟩ ⟨(j 1).val, h1⟩
  have p1 := plane64_cast a1 Gen.shapeCasts_S16x4x512x512_S64x512x512 ⟨(j 0).val, h0⟩ ⟨(j 1).val, h1⟩
  refine congrArg (fun e => Ideal.div (absE (a2 (ix2 (0 : Fin 1) (j 1))) * e) (Ideal.ofBits .f32 0x40000000#32)) ?_
  show pairs _ _ (ix2 _ (0 : Fin 2)) + pairs _ _ (ix2 _ (1 : Fin 2)) = _
  unfold pairs
  rw [if_pos (by rfl), if_neg (by show ¬ ((1 : ℕ) = 0); decide)]
  exact congrArg₂ (· + ·) (by rw [show (⟨_, _⟩ : Fin 64) = ⟨(j 0).val * 4 + (j 1).val, by omega⟩ from rfl, p0, p1]; rfl)
    (by rw [show (⟨_, _⟩ : Fin 64) = ⟨(j 0).val * 4 + (j 1).val, by omega⟩ from rfl, p0, p1]; rfl)

end Cert.EdgeLoss.KTail

end
-- ==== Proof.RefValue.lean ====
/-
  The reference program's value at one (batch, channel) pair, read as the mathematics of the specification.

  The reference computes, four times over (two planes, two directions), the same chain of array operations:
  frame the gated plane with zeros, take the gated absolute difference of entries two apart along one axis, sum
  along that axis, frame the 512 sums with a zero at each end, and sum the absolute differences of entries two
  apart, over four. Each stage is stated once here over an ARBITRARY operand and read at an index; the four copies
  in the program are instances of the two composed chains (one per direction).
-/
import proofs.«116852_j52544629900023_2_alg».proof.Proof.Spec
import proofs.«116852_j52544629900023_2_alg».proof.Proof.Gen.ReferenceIdeal.Read
import Idealize.ShloMosaic.Lib.KernelVsHost
import Idealize.ShloMosaic.Lib.ValueIdx
import Idealize.ShloMosaic.Lib.Pipeline.Value
import Idealize.ShloMosaic.PureOps.Ideal.Laws
import Idealize.ShloMosaic.Lib.IdealHost

noncomputable section

namespace Cert.EdgeLoss.Ref

open Idealize.ShloMosaic Idealize.ShloMosaic.ValueIdx Cert.ReferenceIdeal Cert.ReferenceIdeal.Gen Cert.ReferenceIdeal.Read

/-- Arrays of the shapes the reference handles, at the ideal values. -/
abbrev A0 : Type := (⟨S_, .f32⟩ : BufTy).Contents (Elt Ideal)
abbrev A2 : Type := (⟨S16x4, .f32⟩ : BufTy).Contents (Elt Ideal)
abbrev A3 : Type := (⟨S16x4x512, .f32⟩ : BufTy).Contents (Elt Ideal)
abbrev A3p : Type := (⟨S16x4x514, .f32⟩ : BufTy).Contents (Elt Ideal)
abbrev A4 : Type := (⟨S16x4x512x512, .f32⟩ : BufTy).Contents (Elt Ideal)
abbrev A4p : Type := (⟨S16x4x514x514, .f32⟩ : BufTy).Contents (Elt Ideal)

/-- plane (b, c) of a [16, 4, 512, 512] array -/
def plane4 (x : S16x4x512x512.Idx → EReal) (b : Fin 16) (c : Fin 4) : Fin 512 → Fin 512 → EReal := fun h w => x (ix4 b c h w)

/-! ## The stages, over an arbitrary operand -/

/-- The gate of every entry: one over one plus the exponential of minus ten times the entry less a half. -/
def gateH (v : A4) : A4 :=
  Host.divf (broadcastInDim S16x4x512x512 ![] bcast_S_S16x4x512x512 (constant (F := Ideal) S_ .f32 0x3F800000#32))
    (addf (broadcastInDim S16x4x512x512 ![] bcast_S_S16x4x512x512 (constant (F := Ideal) S_ .f32 0x3F800000#32))
      (Host.exp (Host.negf (mulf
        (subf v (broadcastInDim S16x4x512x512 ![] bcast_S_S16x4x512x512 (constant (F := Ideal) S_ .f32 0x3F000000#32)))
        (broadcastInDim S16x4x512x512 ![] bcast_S_S16x4x512x512 (constant (F := Ideal) S_ .f32 0x41200000#32))))))

/-- Every plane of the array inside a frame, one entry wide, of the scalar `z`. -/
def padPlane (p : A4) (z : A0) : A4p :=
  pad S16x4x514x514 ![0, 0, 1, 1] ![0, 0, 1, 1] ![0, 0, 0, 0] p z pads_S16x4x512x512_S16x4x514x514_000_000_110_110 h_S_

/-- The absolute difference of framed entries two rows apart, at every position of the 512 x 512 window. -/
def diffRows (P : A4p) : A4 :=
  Host.absf (F := Ideal) (φ := .f32) (subf (extractStridedSlice S16x4x512x512 ![0, 0, 2, 0] P slices_S16x4x514x514_S16x4x512x512_0_0_2_0)
    (extractStridedSlice S16x4x512x512 ![0, 0, 0, 0] P slices_S16x4x514x514_S16x4x512x512_0_0_0_0))

/-- The absolute difference of framed entries two columns apart, at every position of the 512 x 512 window. -/
def diffCols (P : A4p) : A4 :=
  Host.absf (F := Ideal) (φ := .f32) (subf (extractStridedSlice S16x4x512x512 ![0, 0, 0, 2] P slices_S16x4x514x514_S16x4x512x512_0_0_0_2)
    (extractStridedSlice S16x4x512x512 ![0, 0, 0, 0] P slices_S16x4x514x514_S16x4x512x512_0_0_0_0))

/-- The sum over the rows (axis 2), from zero. -/
def sumRows (G : A4) : A3 :=
  Host.reduceAdd G (constant (F := Ideal) S_ .f32 0x00000000#32) reducesTo_S16x4x512x512_S16x4x512_d2 h_S_

/-- The sum over the columns (axis 3), from zero. -/
def sumCols (G : A4) : A3 :=
  Host.reduceAdd G (constant (F := Ideal) S_ .f32 0x00000000#32) reducesTo_S16x4x512x512_S16x4x512_d3 h_S_

/-- Every vector of 512 sums with the scalar `z` before it and after it. -/
def padVec (S : A3) (z : A0) : A3p :=
  pad S16x4x514 ![0, 0, 1] ![0, 0, 1] ![0, 0, 0] S z pads_S16x4x512_S16x4x514_000_000_110 h_S_

/-- The sum, from zero, of the absolute differences of framed entries two apart, over four. -/
def edgeH (R : A3p) : A2 :=
  Host.divf
    (Host.reduceAdd
      (Host.absf (F := Ideal) (φ := .f32) (subf (extractStridedSlice S16x4x512 ![0, 0, 2] R slices_S16x4x514_S16x4x512_0_0_2)
        (extractStridedSlice S16x4x512 ![0, 0, 0] R slices_S16x4x514_S16x4x512_0_0_0)))
      (constant (F := Ideal) S_ .f32 0x00000000#32) reducesTo_S16x4x512_S16x4_d2 h_S_)
    (broadcastInDim S16x4 ![] bcast_S_S16x4 (constant (F := Ideal) S_ .f32 0x40800000#32))

/-- The chain across the rows of every plane of `p`. -/
def structXH (p : A4) (z z' : A0) : A2 := edgeH (padVec (sumRows (gateH (diffRows (padPlane p z)))) z')

/-- The chain across the columns of every plane of `p`. -/
def structYH (p : A4) (z z' : A0) : A2 := edgeH (padVec (sumCols (gateH (diffCols (padPlane p z)))) z')

/-! ## Each stage read at an index -/

/-- The printed logistic, one over one plus the exponential of the negated argument, is the gate. -/
theorem gateH_apply (v : A4) (i : S16x4x512x512.Idx) : gateH v i = gate (v i) := by
  show Ideal.div (Ideal.ofBits .f32 0x3F800000#32)
      (Ideal.ofBits .f32 0x3F800000#32
        + Ideal.exp (-((v i - Ideal.ofBits .f32 0x3F000000#32) * Ideal.ofBits .f32 0x41200000#32))) = _
  rw [Ideal.ofBits_one_f32]
  rfl

/-- The gated plane is the plane of gates. -/
theorem plane4_gateH (x : A4) (b : Fin 16) (c : Fin 4) :
    plane4 (gateH x) b c = fun h w => gate (plane4 x b c h w) := by
  funext h w
  exact gateH_apply x (ix4 b c h w)

/-- The framed array at frame coordinates `(m, n)` of plane `(b, c)` is the plane's frame of zeros there. -/
theorem padPlane_apply (p : A4) (z : A0) (hz : z (Shape.Idx.first h_S_) = 0) (b : Fin 16) (c : Fin 4)
    (m n : ℕ) (hm : m < 514) (hn : n < 514) :
    padPlane p z (ix4 b c (⟨m, hm⟩ : Fin 514) (⟨n, hn⟩ : Fin 514)) = frame (plane4 p b c) m n := by
  unfold padPlane frame
  by_cases hw : 1 ≤ n ∧ n ≤ 512
  · by_cases hh : 1 ≤ m ∧ m ≤ 512
    · rw [dif_pos hw, dif_pos hh]
      exact pad_apply_of_inside _ _ _ p z _ h_S_ _
        (ix4 b c (⟨m - 1, by omega⟩ : Fin 512) (⟨n - 1, by omega⟩ : Fin 512)) (fun e => match e with
          | ⟨0, _⟩ => by show b.val = 0 + b.val * (0 + 1); omega
          | ⟨1, _⟩ => by show c.val = 0 + c.val * (0 + 1); omega
          | ⟨2, _⟩ => by show m = 1 + (m - 1) * (0 + 1); omega
          | ⟨3, _⟩ => by show n = 1 + (n - 1) * (0 + 1); omega)
    · rw [dif_pos hw, dif_neg hh]
      refine (pad_apply_of_not_inside _ _ _ p z _ h_S_ _ (2 : Fin 4) ?_).trans hz
      intro hin
      have h1 : 1 ≤ m := hin.1
      have h2 : (m - 1) / (0 + 1) < 512 := hin.2.2
      exact hh ⟨h1, by omega⟩
  · rw [dif_neg hw]
    refine (pad_apply_of_not_inside _ _ _ p z _ h_S_ _ (3 : Fin 4) ?_).trans hz
    intro hin
    have h1 : 1 ≤ n := hin.1
    have h2 : (n - 1) / (0 + 1) < 512 := hin.2.2
    exact hw ⟨h1, by omega⟩

/-- The framed vector at frame coordinate `n` of row `(b, c)` is the row's frame of zeros there. -/
theorem padVec_apply (S : A3) (z : A0) (hz : z (Shape.Idx.first h_S_) = 0) (b : Fin 16) (c : Fin 4)
    (n : ℕ) (hn : n < 514) :
    padVec S z (ix3 b c (⟨n, hn⟩ : Fin 514)) = frameRow (fun k => S (ix3 b c k)) n := by
  unfold padVec frameRow
  by_cases hj : 1 ≤ n ∧ n ≤ 512
  · rw [dif_pos hj]
    exact pad_apply_of_inside _ _ _ S z _ h_S_ _ (ix3 b c (⟨n - 1, by omega⟩ : Fin 512)) (fun e => match e with
      | ⟨0, _⟩ => by show b.val = 0 + b.val * (0 + 1); omega
      | ⟨1, _⟩ => by show c.val = 0 + c.val * (0 + 1); omega
      | ⟨2, _⟩ => by show n = 1 + (n - 1) * (0 + 1); omega)
  · rw [dif_neg hj]
    refine (pad_apply_of_not_inside _ _ _ S z _ h_S_ _ (2 : Fin 3) ?_).trans hz
    intro hin
    have h1 : 1 ≤ n := hin.1
    have h2 : (n - 1) / (0 + 1) < 512 := hin.2.2
    exact hj ⟨h1, by omega⟩

/-- The difference across the rows at window position `(h, w)`: frame rows `h + 2` and `h`, frame column `w`. -/
theorem diffRows_apply (P : A4p) (b : Fin 16) (c : Fin 4) (h w : Fin 512) :
    diffRows P (ix4 b c h w)
      = absE (P (ix4 b c (⟨h.val + 2, by omega⟩ : Fin 514) (⟨w.val, by omega⟩ : Fin 514))
          - P (ix4 b c (⟨h.val, by omega⟩ : Fin 514) (⟨w.val, by omega⟩ : Fin 514))) := by
  show absE (extractStridedSlice S16x4x512x512 ![0, 0, 2, 0] P slices_S16x4x514x514_S16x4x512x512_0_0_2_0 (ix4 b c h w)
      - extractStridedSlice S16x4x512x512 ![0, 0, 0, 0] P slices_S16x4x514x514_S16x4x512x512_0_0_0_0 (ix4 b c h w)) = _
  rw [extractStridedSlice_apply ![0, 0, 2, 0] P slices_S16x4x514x514_S16x4x512x512_0_0_2_0 (ix4 b c h w)
        (ix4 b c (⟨h.val + 2, by omega⟩ : Fin 514) (⟨w.val, by omega⟩ : Fin 514)) (fun e => match e with
          | ⟨0, _⟩ => by show b.val = 0 + b.val; omega
          | ⟨1, _⟩ => by show c.val = 0 + c.val; omega
          | ⟨2, _⟩ => by show h.val + 2 = 2 + h.val; omega
          | ⟨3, _⟩ => by show w.val = 0 + w.val; omega),
      extractStridedSlice_apply ![0, 0, 0, 0] P slices_S16x4x514x514_S16x4x512x512_0_0_0_0 (ix4 b c h w)
        (ix4 b c (⟨h.val, by omega⟩ : Fin 514) (⟨w.val, by omega⟩ : Fin 514)) (fun e => match e with
          | ⟨0, _⟩ => by show b.val = 0 + b.val; omega
          | ⟨1, _⟩ => by show c.val = 0 + c.val; omega
          | ⟨2, _⟩ => by show h.val = 0 + h.val; omega
          | ⟨3, _⟩ => by show w.val = 0 + w.val; omega)]

/-- The difference across the columns at window position `(h, w)`: frame row `h`, frame columns `w + 2` and `w`. -/
theorem diffCols_apply (P : A4p) (b : Fin 16) (c : Fin 4) (h w : Fin 512) :
    diffCols P (ix4 b c h w)
      = absE (P (ix4 b c (⟨h.val, by omega⟩ : Fin 514) (⟨w.val + 2, by omega⟩ : Fin 514))
          - P (ix4 b c (⟨h.val, by omega⟩ : Fin 514) (⟨w.val, by omega⟩ : Fin 514))) := by
  show absE (extractStridedSlice S16x4x512x512 ![0, 0, 0, 2] P slices_S16x4x514x514_S16x4x512x512_0_0_0_2 (ix4 b c h w)
      - extractStridedSlice S16x4x512x512 ![0, 0, 0, 0] P slices_S16x4x514x514_S16x4x512x512_0_0_0_0 (ix4 b c h w)) = _
  rw [extractStridedSlice_apply ![0, 0, 0, 2] P slices_S16x4x514x514_S16x4x512x512_0_0_0_2 (ix4 b c h w)
        (ix4 b c (⟨h.val, by omega⟩ : Fin 514) (⟨w.val + 2, by omega⟩ : Fin 514)) (fun e => match e with
          | ⟨0, _⟩ => by show b.val = 0 + b.val; omega
          | ⟨1, _⟩ => by show c.val = 0 + c.val; omega
          | ⟨2, _⟩ => by show h.val = 0 + h.val; omega
          | ⟨3, _⟩ => by show w.val + 2 = 2 + w.val; omega),
      extractStridedSlice_apply ![0, 0, 0, 0] P slices_S16x4x514x514_S16x4x512x512_0_0_0_0 (ix4 b c h w)
        (ix4 b c (⟨h.val, by omega⟩ : Fin 514) (⟨w.val, by omega⟩ : Fin 514)) (fun e => match e with
          | ⟨0, _⟩ => by show b.val = 0 + b.val; omega
          | ⟨1, _⟩ => by show c.val = 0 + c.val; omega
          | ⟨2, _⟩ => by show h.val = 0 + h.val; omega
          | ⟨3, _⟩ => by show w.val = 0 + w.val; omega)]

/-- The sum over the rows at column `w` of plane `(b, c)`. -/
theorem sumRows_apply (G : A4) (b : Fin 16) (c : Fin 4) (w : Fin 512) :
    sumRows G (ix3 b c w) = ∑ h : Fin 512, G (ix4 b c h w) := by
  unfold sumRows
  simp only [Host.reduceAdd, Ideal.hostReduceAdd_def]
  rw [Ideal.hostReduceAdd_single reducesTo_S16x4x512x512_S16x4x512_d2 (by decide)]
  refine (congrArg (· + _) (Ideal.ofBits_zero_f32)).trans ((zero_add _).trans (Finset.sum_congr rfl fun k _ => ?_))
  exact congrArg G (funext fun a => Fin.ext (by match a with | ⟨0, _⟩ => rfl | ⟨1, _⟩ => rfl | ⟨2, _⟩ => rfl | ⟨3, _⟩ => rfl))

/-- The sum over the columns at row `h` of plane `(b, c)`. -/
theorem sumCols_apply (G : A4) (b : Fin 16) (c : Fin 4) (h : Fin 512) :
    sumCols G (ix3 b c h) = ∑ w : Fin 512, G (ix4 b c h w) := by
  unfold sumCols
  simp only [Host.reduceAdd, Ideal.hostReduceAdd_def]
  rw [Ideal.hostReduceAdd_single reducesTo_S16x4x512x512_S16x4x512_d3 (by decide)]
  refine (congrArg (· + _) (Ideal.ofBits_zero_f32)).trans ((zero_add _).trans (Finset.sum_congr rfl fun k _ => ?_))
  exact congrArg G (funext fun a => Fin.ext (by match a with | ⟨0, _⟩ => rfl | ⟨1, _⟩ => rfl | ⟨2, _⟩ => rfl | ⟨3, _⟩ => rfl))

/-- The sum over a vector's entries at `(b, c)`. -/
theorem sumVec_apply (A : A3) (b : Fin 16) (c : Fin 4) :
    Host.reduceAdd A (constant (F := Ideal) S_ .f32 0x00000000#32) reducesTo_S16x4x512_S16x4_d2 h_S_ (ix2 b c)
      = ∑ j : Fin 512, A (ix3 b c j) := by
  simp only [Host.reduceAdd, Ideal.hostReduceAdd_def]
  rw [Ideal.hostReduceAdd_single reducesTo_S16x4x512_S16x4_d2 (by decide)]
  refine (congrArg (· + _) (Ideal.ofBits_zero_f32)).trans ((zero_add _).trans (Finset.sum_congr rfl fun k _ => ?_))
  exact congrArg A (funext fun a => Fin.ext (by match a with | ⟨0, _⟩ => rfl | ⟨1, _⟩ => rfl | ⟨2, _⟩ => rfl))

/-- The last stage at `(b, c)`: the sum of the absolute differences of framed entries two apart, over four. -/
theorem edgeH_apply (R : A3p) (b : Fin 16) (c : Fin 4) :
    edgeH R (ix2 b c)
      = Ideal.div (∑ j : Fin 512, absE (R (ix3 b c (⟨j.val + 2, by omega⟩ : Fin 514)) - R (ix3 b c (⟨j.val, by omega⟩ : Fin 514))))
          (Ideal.ofBits .f32 0x40800000#32) := by
  show Ideal.div (Host.reduceAdd
      (Host.absf (F := Ideal) (φ := .f32) (subf (extractStridedSlice S16x4x512 ![0, 0, 2] R slices_S16x4x514_S16x4x512_0_0_2)
        (extractStridedSlice S16x4x512 ![0, 0, 0] R slices_S16x4x514_S16x4x512_0_0_0)))
      (constant (F := Ideal) S_ .f32 0x00000000#32) reducesTo_S16x4x512_S16x4_d2 h_S_ (ix2 b c)) (Ideal.ofBits .f32 0x40800000#32) = _
  rw [sumVec_apply]
  refine congrArg (Ideal.div · _) (Finset.sum_congr rfl fun j _ => ?_)
  show absE (extractStridedSlice S16x4x512 ![0, 0, 2] R slices_S16x4x514_S16x4x512_0_0_2 (ix3 b c j)
      - extractStridedSlice S16x4x512 ![0, 0, 0] R slices_S16x4x514_S16x4x512_0_0_0 (ix3 b c j)) = _
  rw [extractStridedSlice_apply ![0, 0, 2] R slices_S16x4x514_S16x4x512_0_0_2 (ix3 b c j)
        (ix3 b c (⟨j.val + 2, by omega⟩ : Fin 514)) (fun e => match e with
          | ⟨0, _⟩ => by show b.val = 0 + b.val; omega
          | ⟨1, _⟩ => by show c.val = 0 + c.val; omega
          | ⟨2, _⟩ => by show j.val + 2 = 2 + j.val; omega),
      extractStridedSlice_apply ![0, 0, 0] R slices_S16x4x514_S16x4x512_0_0_0 (ix3 b c j)
        (ix3 b c (⟨j.val, by omega⟩ : Fin 514)) (fun e => match e with
          | ⟨0, _⟩ => by show b.val = 0 + b.val; omega
          | ⟨1, _⟩ => by show c.val = 0 + c.val; omega
          | ⟨2, _⟩ => by show j.val = 0 + j.val; omega)]

/-! ## The two chains are the two structures -/

/-- The chain across the rows, at `(b, c)`, is the edge structure of the column sums of the framed plane. -/
theorem structXH_apply (p : A4) (z z' : A0) (hz : z (Shape.Idx.first h_S_) = 0) (hz' : z' (Shape.Idx.first h_S_) = 0)
    (b : Fin 16) (c : Fin 4) :
    structXH p z z' (ix2 b c) = edge (colGate (frame (plane4 p b c))) := by
  have hs : (fun k : Fin 512 => sumRows (gateH (diffRows (padPlane p z))) (ix3 b c k)) = colGate (frame (plane4 p b c)) := by
    funext w
    rw [sumRows_apply]
    unfold colGate
    refine Finset.sum_congr rfl fun h _ => ?_
    rw [gateH_apply, diffRows_apply, padPlane_apply p z hz, padPlane_apply p z hz]
  unfold structXH
  rw [edgeH_apply]
  unfold edge
  refine congrArg (Ideal.div · _) (Finset.sum_congr rfl fun j _ => ?_)
  rw [padVec_apply _ z' hz', padVec_apply _ z' hz', hs]

/-- The chain across the columns, at `(b, c)`, is the edge structure of the row sums of the framed plane. -/
theorem structYH_apply (p : A4) (z z' : A0) (hz : z (Shape.Idx.first h_S_) = 0) (hz' : z' (Shape.Idx.first h_S_) = 0)
    (b : Fin 16) (c : Fin 4) :
    structYH p z z' (ix2 b c) = edge (rowGate (frame (plane4 p b c))) := by
  have hs : (fun k : Fin 512 => sumCols (gateH (diffCols (padPlane p z))) (ix3 b c k)) = rowGate (frame (plane4 p b c)) := by
    funext h
    rw [sumCols_apply]
    unfold rowGate
    refine Finset.sum_congr rfl fun w _ => ?_
    rw [gateH_apply, diffCols_apply, padPlane_apply p z hz, padPlane_apply p z hz]
  unfold structYH
  rw [edgeH_apply]
  unfold edge
  refine congrArg (Ideal.div · _) (Finset.sum_congr rfl fun j _ => ?_)
  rw [padVec_apply _ z' hz', padVec_apply _ z' hz', hs]

/-! ## The program's four copies are these chains -/

theorem v9_eq (x0 : A4) : val_main_v9 (F := Ideal) x0 = gateH x0 := rfl
theorem v19_eq (x1 : A4) : val_main_v19 (F := Ideal) x1 = gateH x1 := rfl

theorem v43_eq (x0 : A4) :
    val_main_v43 (F := Ideal) x0 = structXH (gateH x0) (val_main_call0_v0 (F := Ideal)) (val_main_call1_v0 (F := Ideal)) := rfl
theorem v69_eq (x0 : A4) :
    val_main_v69 (F := Ideal) x0 = structYH (gateH x0) (val_main_call2_v0 (F := Ideal)) (val_main_call3_v0 (F := Ideal)) := rfl
theorem v95_eq (x1 : A4) :
    val_main_v95 (F := Ideal) x1 = structXH (gateH x1) (val_main_call4_v0 (F := Ideal)) (val_main_call5_v0 (F := Ideal)) := rfl
theorem v121_eq (x1 : A4) :
    val_main_v121 (F := Ideal) x1 = structYH (gateH x1) (val_main_call6_v0 (F := Ideal)) (val_main_call7_v0 (F := Ideal)) := rfl

/-- The frames' padding value, the integer zero converted, is zero. -/
theorem call0_zero : val_main_call0_v0 (F := Ideal) (Shape.Idx.first h_S_) = 0 := sitofp_zero (φ := .f32)
theorem call1_zero : val_main_call1_v0 (F := Ideal) (Shape.Idx.first h_S_) = 0 := sitofp_zero (φ := .f32)
theorem call2_zero : val_main_call2_v0 (F := Ideal) (Shape.Idx.first h_S_) = 0 := sitofp_zero (φ := .f32)
theorem call3_zero : val_main_call3_v0 (F := Ideal) (Shape.Idx.first h_S_) = 0 := sitofp_zero (φ := .f32)
theorem call4_zero : val_main_call4_v0 (F := Ideal) (Shape.Idx.first h_S_) = 0 := sitofp_zero (φ := .f32)
theorem call5_zero : val_main_call5_v0 (F := Ideal) (Shape.Idx.first h_S_) = 0 := sitofp_zero (φ := .f32)
theorem call6_zero : val_main_call6_v0 (F := Ideal) (Shape.Idx.first h_S_) = 0 := sitofp_zero (φ := .f32)
theorem call7_zero : val_main_call7_v0 (F := Ideal) (Shape.Idx.first h_S_) = 0 := sitofp_zero (φ := .f32)

/-- The input's structure across the rows. -/
theorem v43_apply (x0 : A4) (b : Fin 16) (c : Fin 4) : val_main_v43 (F := Ideal) x0 (ix2 b c) = structX (plane4 x0 b c) := by
  rw [v43_eq, structXH_apply _ _ _ call0_zero call1_zero, plane4_gateH]
  rfl

/-- The input's structure across the columns. -/
theorem v69_apply (x0 : A4) (b : Fin 16) (c : Fin 4) : val_main_v69 (F := Ideal) x0 (ix2 b c) = structY (plane4 x0 b c) := by
  rw [v69_eq, structYH_apply _ _ _ call2_zero call3_zero, plane4_gateH]
  rfl

/-- The target's structure across the rows. -/
theorem v95_apply (x1 : A4) (b : Fin 16) (c : Fin 4) : val_main_v95 (F := Ideal) x1 (ix2 b c) = structX (plane4 x1 b c) := by
  rw [v95_eq, structXH_apply _ _ _ call4_zero call5_zero, plane4_gateH]
  rfl

/-- The target's structure across the columns. -/
theorem v121_apply (x1 : A4) (b : Fin 16) (c : Fin 4) : val_main_v121 (F := Ideal) x1 (ix2 b c) = structY (plane4 x1 b c) := by
  rw [v121_eq, structYH_apply _ _ _ call6_zero call7_zero, plane4_gateH]
  rfl

/-- The weight row spread over the batch: entry `(b, c)` is the weight of channel `c`. -/
theorem v44_apply (x2 : (⟨S1x4, .f32⟩ : BufTy).Contents (Elt Ideal)) (b : Fin 16) (c : Fin 4) :
    val_main_v44 (F := Ideal) x2 (ix2 b c) = x2 (ix2 0 c) := by
  rw [val_main_v44_apply]
  exact congrArg x2 (funext fun a => Fin.ext (by match a with | ⟨0, _⟩ => rfl | ⟨1, _⟩ => rfl))
theorem v70_apply (x2 : (⟨S1x4, .f32⟩ : BufTy).Contents (Elt Ideal)) (b : Fin 16) (c : Fin 4) :
    val_main_v70 (F := Ideal) x2 (ix2 b c) = x2 (ix2 0 c) := by
  rw [val_main_v70_apply]
  exact congrArg x2 (funext fun a => Fin.ext (by match a with | ⟨0, _⟩ => rfl | ⟨1, _⟩ => rfl))
theorem v96_apply (x2 : (⟨S1x4, .f32⟩ : BufTy).Contents (Elt Ideal)) (b : Fin 16) (c : Fin 4) :
    val_main_v96 (F := Ideal) x2 (ix2 b c) = x2 (ix2 0 c) := by
  rw [val_main_v96_apply]
  exact congrArg x2 (funext fun a => Fin.ext (by match a with | ⟨0, _⟩ => rfl | ⟨1, _⟩ => rfl))
theorem v122_apply (x2 : (⟨S1x4, .f32⟩ : BufTy).Contents (Elt Ideal)) (b : Fin 16) (c : Fin 4) :
    val_main_v122 (F := Ideal) x2 (ix2 b c) = x2 (ix2 0 c) := by
  rw [val_main_v122_apply]
  exact congrArg x2 (funext fun a => Fin.ext (by match a with | ⟨0, _⟩ => rfl | ⟨1, _⟩ => rfl))

/-- The reference's loss entry at `(b, c)`: half the sum of the two absolute differences of weighted structures. -/
theorem loss_apply (x0 x1 : (⟨S16x4x512x512, .f32⟩ : BufTy).Contents (Elt Ideal)) (x2 : (⟨S1x4, .f32⟩ : BufTy).Contents (Elt Ideal))
    (b : Fin 16) (c : Fin 4) :
    val_main_v130 (F := Ideal) x0 x1 x2 (ix2 b c)
      = Ideal.div (absE (structX (plane4 x0 b c) * x2 (ix2 0 c) - structX (plane4 x1 b c) * x2 (ix2 0 c))
                   + absE (structY (plane4 x0 b c) * x2 (ix2 0 c) - structY (plane4 x1 b c) * x2 (ix2 0 c)))
          (Ideal.ofBits .f32 0x40000000#32) := by
  show Ideal.div
      (absE (val_main_v43 (F := Ideal) x0 (ix2 b c) * val_main_v44 (F := Ideal) x2 (ix2 b c)
          - val_main_v95 (F := Ideal) x1 (ix2 b c) * val_main_v96 (F := Ideal) x2 (ix2 b c))
        + absE (val_main_v69 (F := Ideal) x0 (ix2 b c) * val_main_v70 (F := Ideal) x2 (ix2 b c)
          - val_main_v121 (F := Ideal) x1 (ix2 b c) * val_main_v122 (F := Ideal) x2 (ix2 b c)))
      (Ideal.ofBits .f32 0x40000000#32) = _
  rw [v43_apply, v95_apply, v69_apply, v121_apply, v44_apply, v96_apply, v70_apply, v122_apply]

end Cert.EdgeLoss.Ref

end
-- ==== Proof.Bridge.lean ====
/-
  The two programs return one number. Both sum over the 64 (batch, channel) pairs and divide by 64; at pair `(b, c)`,
  with `X`, `Y` the edge structures of the input's plane, `X'`, `Y'` those of the target's plane and `w` the channel's
  weight, the reference's term is (|X w - X' w| + |Y w - Y' w|) / 2 and the kernel's is |w| (|X - X'| + |Y - Y'|) / 2.
  The structures are real numbers for every input and the weight is one under the precondition, so the two terms are
  equal (`weighted_abs`).
-/
import proofs.«116852_j52544629900023_2_alg».proof.Proof.KernelTail
import proofs.«116852_j52544629900023_2_alg».proof.Proof.RefValue

noncomputable section

namespace Cert.EdgeLoss.Bridge

open Idealize.ShloMosaic Idealize.ShloMosaic.ValueIdx Cert.EdgeLoss

/-- The reference's result is the kernel's function of the arguments, when every weight is a real number. -/
theorem ref_eq_kernel (a0 a1 : (⟨4, ![16, 4, 512, 512]⟩ : Shape).Idx → EReal) (a2 : (⟨2, ![1, 4]⟩ : Shape).Idx → EReal)
    (hw : ∀ k : Fin 4, IsReal (a2 (ix2 (0 : Fin 1) k))) :
    Cert.ReferenceIdeal.Read.val_main_v132 (F := Ideal) a0 a1 a2 = KTail.lossK a0 a1 a2 := by
  funext i
  rw [KTail.lossK_apply]
  show Ideal.div (Cert.ReferenceIdeal.Read.val_main_v131 (F := Ideal) a0 a1 a2 i) (Ideal.ofBits .f32 0x42800000#32) = _
  rw [Cert.ReferenceIdeal.Read.val_main_v131_apply]
  refine congrArg (fun e => Ideal.div (Ideal.ofBits .f32 0x00000000#32 + e) (Ideal.ofBits .f32 0x42800000#32)) ?_
  refine Finset.sum_congr rfl fun j _ => ?_
  obtain ⟨b, c, rfl⟩ : ∃ (b : Fin 16) (c : Fin 4), j = ix2 b c := ⟨j 0, j 1, eq_ix2 j⟩
  rw [Ref.loss_apply]
  refine congrArg (fun e => Ideal.div e (Ideal.ofBits .f32 0x40000000#32)) ?_
  exact weighted_abs (isReal_structX _) (isReal_structX _) (isReal_structY _) (isReal_structY _) (hw c)

end Cert.EdgeLoss.Bridge

end
-- ==== Proof.Finite.lean ====
/-
  The precondition says every entry of the three inputs has absolute value below plus infinity. Read at the ideal
  values, where an entry is an extended real, that makes each entry a real number: the absolute value of either
  infinity is plus infinity, which is not below itself. Only the third input, the weight row, is read here.
-/
import proofs.«116852_j52544629900023_2_alg».proof.Proof.Spec
import proofs.«116852_j52544629900023_2_alg».proof.Pre_finite_inputs
import Idealize.ShloMosaic.Lib.ReduceAll
import Idealize.ShloMosaic.Lib.ValueIdx
import Idealize.ShloMosaic.PureOps.Ideal.Laws

noncomputable section

namespace Cert.EdgeLoss.Finite

open Idealize.ShloMosaic Idealize.ShloMosaic.ValueIdx

/-- The scalar shape has one index. -/
instance : Subsingleton Cert.Pre_finite_inputs.S_.Idx := ⟨fun a b => funext fun d => d.elim0⟩

/-- The pattern `0x7F800000` is plus infinity. -/
theorem ofBits_inf : Ideal.ofBits .f32 0x7F800000#32 = ⊤ := by simp [Ideal.ofBits, Ideal.ieee]

/-- An extended real whose absolute value compares below plus infinity is a real number. -/
theorem isReal_of_abs_lt (x : EReal) (h : Ideal.cmp .olt (max x (-x)) (Ideal.ofBits .f32 0x7F800000#32) = 1#1) :
    IsReal x := by
  rw [ofBits_inf] at h
  induction x using EReal.rec with
  | bot => exact absurd h (by simp [Ideal.cmp])
  | coe r => exact ⟨r, rfl⟩
  | top => exact absurd h (by simp [Ideal.cmp])

/-- Under the precondition every weight is a real number. -/
theorem weight_isReal [Cert.Pre_finite_inputs.Facts] (a0 a1 : FVec Ideal Cert.Pre_finite_inputs.S16x4x512x512 .f32)
    (a2 : FVec Ideal Cert.Pre_finite_inputs.S1x4 .f32)
    (h : Cert.Pre_finite_inputs.fn (F := Ideal) a0 a1 a2 = fun _ => 1#1) (k : Fin 4) :
    Cert.EdgeLoss.IsReal (a2 (ix2 (0 : Fin 1) k)) := by
  have e := congrFun h ix0
  dsimp only [Cert.Pre_finite_inputs.fn] at e
  have e3 := (IntOp.andi_eq_one.1 e).2
  have el := Host.reduce_andi_all _ _ _ _ _ e3 (ix2 (0 : Fin 1) k)
  exact isReal_of_abs_lt _ el

end Cert.EdgeLoss.Finite

end
-- ==== Proof.lean ====
/-
  The proof of the certificate's claim: the kernel and its reference compute the same loss.

  Both programs take an input and a target of 16 x 4 planes of 512 x 512 entries and a weight per channel. For each
  plane they form its two edge structures (Proof/Spec.lean): the gate of every entry, a frame of zeros, the gated
  absolute differences two rows (two columns) apart summed along the rows (the columns), those 512 sums framed by two
  zeros, and the sum of their absolute differences two apart, over four. The kernel works on blocks of eight planes
  and returns, for each plane, the absolute differences of the input's and the target's structures
  (Proof/KernelBlock.lean, Proof/KernelArray.lean); the host then weights the sum of the two by the absolute value of
  the channel's weight, halves it and takes the mean over the 64 planes (Proof/KernelTail.lean). The reference weights
  each structure first, subtracts, takes absolute values, adds, halves and takes the mean (Proof/RefValue.lean).
  The structures are real numbers whatever the inputs, because a logistic value is, and the weight is a real number
  under the precondition (Proof/Finite.lean), so |X w - X' w| = |w| |X - X'| and the two means agree
  (Proof/Bridge.lean).

  The three frames: each kernel program runs, faults nowhere and leaves its arguments as they were, by the generated
  frame; the reference by its generated run. No operation was rewritten by the idealization, so there is nothing to
  preserve.
-/
import proofs.«116852_j52544629900023_2_alg».proof.Defs
import proofs.«116852_j52544629900023_2_alg».proof.Proof.Gen.Kernel
import proofs.«116852_j52544629900023_2_alg».proof.Proof.Gen.Kernel.Skeleton
import proofs.«116852_j52544629900023_2_alg».proof.Proof.Gen.Kernel.Launch
import proofs.«116852_j52544629900023_2_alg».proof.Proof.Gen.Kernel.Points
import proofs.«116852_j52544629900023_2_alg».proof.Proof.Gen.Kernel.Frame
import proofs.«116852_j52544629900023_2_alg».proof.Proof.Gen.KernelIdeal
import proofs.«116852_j52544629900023_2_alg».proof.Proof.Gen.KernelIdeal.Skeleton
import proofs.«116852_j52544629900023_2_alg».proof.Proof.Gen.KernelIdeal.Launch
import proofs.«116852_j52544629900023_2_alg».proof.Proof.Gen.KernelIdeal.Points
import proofs.«116852_j52544629900023_2_alg».proof.Proof.Gen.KernelIdeal.Frame
import proofs.«116852_j52544629900023_2_alg».proof.Proof.Gen.ReferenceIdeal
import proofs.«116852_j52544629900023_2_alg».proof.Proof.Gen.ReferenceIdeal.Run
import proofs.«116852_j52544629900023_2_alg».proof.Proof.Gen.ReferenceIdeal.Read
import proofs.«116852_j52544629900023_2_alg».proof.Proof.Gen.Pre_finite_inputs
import proofs.«116852_j52544629900023_2_alg».proof.Proof.Bridge
import proofs.«116852_j52544629900023_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at the kernel's function of the arguments: the kernel by its run read back, the
    reference because its result is that function wherever the weights are real numbers, as the precondition says. -/
theorem algebraic : Cert.algebraic_KernelIdeal_ReferenceIdeal := by
  intro m ρ m' ρ' hpre hagree
  refine ⟨fun c => Cert.EdgeLoss.KTail.lossK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.EdgeLoss.KTail.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v132_eq, (hagree c).1, (hagree c).2.1, (hagree c).2.2]
  exact Cert.EdgeLoss.Bridge.ref_eq_kernel _ _ _ fun k => Cert.EdgeLoss.Finite.weight_isReal _ _ _ (hpre c) k

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
